-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v179) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x256x32 : Shape := ⟨4, ![4, 256, 256, 32]⟩
abbrev S4x256x256x25 : Shape := ⟨4, ![4, 256, 256, 25]⟩
abbrev S32 : Shape := ⟨1, ![32]⟩
abbrev S_ : Shape := ⟨0, ![]⟩

class Facts : Prop where
  bcast_S_S4x256x256x32 : S_.BroadcastsInDim S4x256x256x32 (![] : Fin 0 → Fin S4x256x256x32.rank)
  reducesTo_S4x256x256x32_S_d0_1_2_3 : S4x256x256x32.ReducesTo [0, 1, 2, 3] S_
  h_S_ : 0 < S_.numel
  bcast_S_S4x256x256x25 : S_.BroadcastsInDim S4x256x256x25 (![] : Fin 0 → Fin S4x256x256x25.rank)
  reducesTo_S4x256x256x25_S_d0_1_2_3 : S4x256x256x25.ReducesTo [0, 1, 2, 3] S_
  bcast_S_S32 : S_.BroadcastsInDim S32 (![] : Fin 0 → Fin S32.rank)
  reducesTo_S32_S_d0 : S32.ReducesTo [0] S_

variable [Facts]

def fn {F : FTy → Type} [FloatOps F] (main_arg0 : FVec F S4x256x256x32 .f32) (main_arg1 : FVec F S4x256x256x25 .f32) (main_arg2 : FVec F S32 .f32) : IVec S_ 1 :=
  let main_v0 : FVec F S4x256x256x32 .f32 := Host.absf main_arg0
  let main_cst : FVec F S_ .f32 := constant S_ .f32 0x7F800000#32
  let main_v1 : FVec F S4x256x256x32 .f32 := broadcastInDim S4x256x256x32 ![] bcast_S_S4x256x256x32 main_cst
  let main_v2 : IVec S4x256x256x32 1 := cmpf .olt main_v0 main_v1
  let main_c : IVec S_ 1 := constantI S_ 1 1#1
  let main_v3 : IVec S_ 1 := (fun x v => Host.reduce IntOp.andi x v reducesTo_S4x256x256x32_S_d0_1_2_3 h_S_) main_v2 main_c
  let main_v4 : FVec F S4x256x256x25 .f32 := Host.absf main_arg1
  let main_cst_0 : FVec F S_ .f32 := constant S_ .f32 0x7F800000#32
  let main_v5 : FVec F S4x256x256x25 .f32 := broadcastInDim S4x256x256x25 ![] bcast_S_S4x256x256x25 main_cst_0
  let main_v6 : IVec S4x256x256x25 1 := cmpf .olt main_v4 main_v5
  let main_c_1 : IVec S_ 1 := constantI S_ 1 1#1
  let main_v7 : IVec S_ 1 := (fun x v => Host.reduce IntOp.andi x v reducesTo_S4x256x256x25_S_d0_1_2_3 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S4x256x256x32 : Shape := ⟨4, ![4, 256, 256, 32]⟩
abbrev S4x256x256x25 : Shape := ⟨4, ![4, 256, 256, 25]⟩
abbrev S32 : Shape := ⟨1, ![32]⟩
abbrev S_ : Shape := ⟨0, ![]⟩
abbrev S4x260x260x32 : Shape := ⟨4, ![4, 260, 260, 32]⟩
abbrev S1x260x260x32 : Shape := ⟨4, ![1, 260, 260, 32]⟩
abbrev S1x32x256x25 : Shape := ⟨4, ![1, 32, 256, 25]⟩
abbrev S1x32x256x32 : Shape := ⟨4, ![1, 32, 256, 32]⟩
abbrev S32x256x32 : Shape := ⟨3, ![32, 256, 32]⟩
abbrev S1x32x256x1 : Shape := ⟨4, ![1, 32, 256, 1]⟩
abbrev S32x256 : Shape := ⟨2, ![32, 256]⟩
abbrev S32x256x1 : Shape := ⟨3, ![32, 256, 1]⟩
abbrev S1x1x32 : Shape := ⟨3, ![1, 1, 32]⟩

abbrev nBuf : Space → Nat
  | .hbm => 7
  | .vmem => 6
  | .smem => 0
  | _ => 0

abbrev bufTy : (tb : Table) → Fin (tcTables nBuf tb) → BufTy
  | .hbm, ⟨0, _⟩ => ⟨S4x256x256x32, .f32⟩
  | .hbm, ⟨1, _⟩ => ⟨S4x256x256x25, .f32⟩
  | .hbm, ⟨2, _⟩ => ⟨S32, .f32⟩
  | .hbm, ⟨3, _⟩ => ⟨S_, .i32⟩
  | .hbm, ⟨4, _⟩ => ⟨S_, .f32⟩
  | .hbm, ⟨5, _⟩ => ⟨S4x260x260x32, .f32⟩
  | .hbm, ⟨6, _⟩ => ⟨S4x256x256x32, .f32⟩
  | .local _ .vmem, ⟨0, _⟩ => ⟨S1x260x260x32, .f32⟩
  | .local _ .vmem, ⟨1, _⟩ => ⟨S1x32x256x25, .f32⟩
  | .local _ .vmem, ⟨2, _⟩ => ⟨S1x32x256x25, .f32⟩
  | .local _ .vmem, ⟨3, _⟩ => ⟨S32, .f32⟩
  | .local _ .vmem, ⟨4, _⟩ => ⟨S1x32x256x32, .f32⟩
  | .local _ .vmem, ⟨5, _⟩ => ⟨S1x32x256x32, .f32⟩
  | _, _ => ⟨S4x256x256x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 8], ![false, false]⟩

def k0_off1 (i : grid0.Coords) (c0_i32 : BitVec 32) : Fin 4 → Nat :=
  let c0_3 : Index := 0#32
  let arg1 : BitVec 32 := BitVec.ofNat 32 (i 1).val
  let c32_i32 : BitVec 32 := 32#32
  let v0 : BitVec 32 := Scalar.muli arg1 c32_i32
  let v5 : BitVec 32 := Scalar.addi v0 c0_i32
  let v6 : Index := Scalar.indexCast v5
  let c0_4 : Index := 0#32
  let c0_5 : Index := 0#32
  ![0, v6.toNat, 0, 0]
def k0_off2 (i : grid0.Coords) (c0_i32_9 : BitVec 32) : Fin 4 → Nat :=
  let c0_10 : Index := 0#32
  let arg1 : BitVec 32 := BitVec.ofNat 32 (i 1).val
  let c32_i32 : BitVec 32 := 32#32
  let v0 : BitVec 32 := Scalar.muli arg1 c32_i32
  let v15 : BitVec 32 := Scalar.addi v0 c0_i32_9
  let v16 : Index := Scalar.indexCast v15
  let c1_11 : Index := 1#32
  let c0_12 : Index := 0#32
  ![0, v16.toNat, 1, 0]
def k0_off3 (i : grid0.Coords) (c0_i32_16 : BitVec 32) : Fin 4 → Nat :=
  let c0_17 : Index := 0#32
  let arg1 : BitVec 32 := BitVec.ofNat 32 (i 1).val
  let c32_i32 : BitVec 32 := 32#32
  let v0 : BitVec 32 := Scalar.muli arg1 c32_i32
  let v25 : BitVec 32 := Scalar.addi v0 c0_i32_16
  let v26 : Index := Scalar.indexCast v25
  let c2_18 : Index := 2#32
  let c0_19 : Index := 0#32
  ![0, v26.toNat, 2, 0]
def k0_off4 (i : grid0.Coords) (c0_i32_23 : BitVec 32) : Fin 4 → Nat :=
  let c0_24 : Index := 0#32
  let arg1 : BitVec 32 := BitVec.ofNat 32 (i 1).val
  let c32_i32 : BitVec 32 := 32#32
  let v0 : BitVec 32 := Scalar.muli arg1 c32_i32
  let v35 : BitVec 32 := Scalar.addi v0 c0_i32_23
  let v36 : Index := Scalar.indexCast v35
  let c3_25 : Index := 3#32
  let c0_26 : Index := 0#32
  ![0, v36.toNat, 3, 0]
def k0_off5 (i : grid0.Coords) (c0_i32_30 : BitVec 32) : Fin 4 → Nat :=
  let c0_31 : Index := 0#32
  let arg1 : BitVec 32 := BitVec.ofNat 32 (i 1).val
  let c32_i32 : BitVec 32 := 32#32
  let v0 : BitVec 32 := Scalar.muli arg1 c32_i32
  let v45 : BitVec 32 := Scalar.addi v0 c0_i32_30
  let v46 : Index := Scalar.indexCast v45
  let c4_32 : Index := 4#32
  let c0_33 : Index := 0#32
  ![0, v46.toNat, 4, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .vmem S1x260x260x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x32x256x25 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x32x256x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  pads_S4x256x256x32_S4x260x260x32_000_220_220_000 : S4x256x256x32.Pads (![0, 2, 2, 0] : Fin 4 → Nat) ![0, 2, 2, 0] ![0, 0, 0, 0] S4x260x260x32
  h_S_ : 0 < S_.numel
  inb_S1x32x256x25_S1x32x256x1_0_0_0_0 : ∀ a, (![0, 0, 0, 0] : Fin 4 → Nat) a + S1x32x256x1.size a ≤ S1x32x256x25.size a
  h_S1x32x256x1 : 0 < S1x32x256x1.numel
  shapeCasts_S1x32x256x1_S32x256 : S1x32x256x1.ShapeCasts S32x256
  shapeCasts_S32x256_S32x256x1 : S32x256.ShapeCasts S32x256x1
  h_S1x32x256x32 : 0 < S1x32x256x32.numel
  shapeCasts_S1x32x256x32_S32x256x32 : S1x32x256x32.ShapeCasts S32x256x32
  broadcasts_S32x256x1_S32x256x32 : S32x256x1.Broadcasts S32x256x32
  inb_S1x32x256x25_S1x32x256x1_0_0_0_1 : ∀ a, (![0, 0, 0, 1] : Fin 4 → Nat) a + S1x32x256x1.size a ≤ S1x32x256x25.size a
  inb_S1x32x256x25_S1x32x256x1_0_0_0_2 : ∀ a, (![0, 0, 0, 2] : Fin 4 → Nat) a + S1x32x256x1.size a ≤ S1x32x256x25.size a
  inb_S1x32x256x25_S1x32x256x1_0_0_0_3 : ∀ a, (![0, 0, 0, 3] : Fin 4 → Nat) a + S1x32x256x1.size a ≤ S1x32x256x25.size a
  inb_S1x32x256x25_S1x32x256x1_0_0_0_4 : ∀ a, (![0, 0, 0, 4] : Fin 4 → Nat) a + S1x32x256x1.size a ≤ S1x32x256x25.size a
  inb_S1x32x256x25_S1x32x256x1_0_0_0_5 : ∀ a, (![0, 0, 0, 5] : Fin 4 → Nat) a + S1x32x256x1.size a ≤ S1x32x256x25.size a
  inb_S1x32x256x25_S1x32x256x1_0_0_0_6 : ∀ a, (![0, 0, 0, 6] : Fin 4 → Nat) a + S1x32x256x1.size a ≤ S1x32x256x25.size a
  inb_S1x32x256x25_S1x32x256x1_0_0_0_7 : ∀ a, (![0, 0, 0, 7] : Fin 4 → Nat) a + S1x32x256x1.size a ≤ S1x32x256x25.size a
  inb_S1x32x256x25_S1x32x256x1_0_0_0_8 : ∀ a, (![0, 0, 0, 8] : Fin 4 → Nat) a + S1x32x256x1.size a ≤ S1x32x256x25.size a
  inb_S1x32x256x25_S1x32x256x1_0_0_0_9 : ∀ a, (![0, 0, 0, 9] : Fin 4 → Nat) a + S1x32x256x1.size a ≤ S1x32x256x25.size a
  inb_S1x32x256x25_S1x32x256x1_0_0_0_10 : ∀ a, (![0, 0, 0, 10] : Fin 4 → Nat) a + S1x32x256x1.size a ≤ S1x32x256x25.size a
  inb_S1x32x256x25_S1x32x256x1_0_0_0_11 : ∀ a, (![0, 0, 0, 11] : Fin 4 → Nat) a + S1x32x256x1.size a ≤ S1x32x256x25.size a
  inb_S1x32x256x25_S1x32x256x1_0_0_0_12 : ∀ a, (![0, 0, 0, 12] : Fin 4 → Nat) a + S1x32x256x1.size a ≤ S1x32x256x25.size a
  inb_S1x32x256x25_S1x32x256x1_0_0_0_13 : ∀ a, (![0, 0, 0, 13] : Fin 4 → Nat) a + S1x32x256x1.size a ≤ S1x32x256x25.size a
  inb_S1x32x256x25_S1x32x256x1_0_0_0_14 : ∀ a, (![0, 0, 0, 14] : Fin 4 → Nat) a + S1x32x256x1.size a ≤ S1x32x256x25.size a
  inb_S1x32x256x25_S1x32x256x1_0_0_0_15 : ∀ a, (![0, 0, 0, 15] : Fin 4 → Nat) a + S1x32x256x1.size a ≤ S1x32x256x25.size a
  inb_S1x32x256x25_S1x32x256x1_0_0_0_16 : ∀ a, (![0, 0, 0, 16] : Fin 4 → Nat) a + S1x32x256x1.size a ≤ S1x32x256x25.size a
  inb_S1x32x256x25_S1x32x256x1_0_0_0_17 : ∀ a, (![0, 0, 0, 17] : Fin 4 → Nat) a + S1x32x256x1.size a ≤ S1x32x256x25.size a
  inb_S1x32x256x25_S1x32x256x1_0_0_0_18 : ∀ a, (![0, 0, 0, 18] : Fin 4 → Nat) a + S1x32x256x1.size a ≤ S1x32x256x25.size a
  inb_S1x32x256x25_S1x32x256x1_0_0_0_19 : ∀ a, (![0, 0, 0, 19] : Fin 4 → Nat) a + S1x32x256x1.size a ≤ S1x32x256x25.size a
  inb_S1x32x256x25_S1x32x256x1_0_0_0_20 : ∀ a, (![0, 0, 0, 20] : Fin 4 → Nat) a + S1x32x256x1.size a ≤ S1x32x256x25.size a
  inb_S1x32x256x25_S1x32x256x1_0_0_0_21 : ∀ a, (![0, 0, 0, 21] : Fin 4 → Nat) a + S1x32x256x1.size a ≤ S1x32x256x25.size a
  inb_S1x32x256x25_S1x32x256x1_0_0_0_22 : ∀ a, (![0, 0, 0, 22] : Fin 4 → Nat) a + S1x32x256x1.size a ≤ S1x32x256x25.size a
  inb_S1x32x256x25_S1x32x256x1_0_0_0_23 : ∀ a, (![0, 0, 0, 23] : Fin 4 → Nat) a + S1x32x256x1.size a ≤ S1x32x256x25.size a
  inb_S1x32x256x25_S1x32x256x1_0_0_0_24 : ∀ a, (![0, 0, 0, 24] : Fin 4 → Nat) a + S1x32x256x1.size a ≤ S1x32x256x25.size a
  inb_S32_S32_0 : ∀ a, (![0] : Fin 1 → Nat) a + S32.size a ≤ S32.size a
  h_S32 : 0 < S32.numel
  shapeCasts_S32_S1x1x32 : S32.ShapeCasts S1x1x32
  broadcasts_S1x1x32_S32x256x32 : S1x1x32.Broadcasts S32x256x32
  inb_S1x32x256x32_S1x32x256x32_0_0_0_0 : ∀ a, (![0, 0, 0, 0] : Fin 4 → Nat) a + S1x32x256x32.size a ≤ S1x32x256x32.size a
  shapeCasts_S32x256x32_S1x32x256x32 : S32x256x32.ShapeCasts S1x32x256x32
  hrank0 : 0 < grid0.rank
  k0_off1_inb : ∀ i : grid0.Coords, ∀ (r : Fin 5), ∀ a, (k0_off1 i (BitVec.ofNat 32 r.val)) a + S1x32x256x32.size a ≤ S1x260x260x32.size a
  k0_off2_inb : ∀ i : grid0.Coords, ∀ (r : Fin 5), ∀ a, (k0_off2 i (BitVec.ofNat 32 r.val)) a + S1x32x256x32.size a ≤ S1x260x260x32.size a
  k0_off3_inb : ∀ i : grid0.Coords, ∀ (r : Fin 5), ∀ a, (k0_off3 i (BitVec.ofNat 32 r.val)) a + S1x32x256x32.size a ≤ S1x260x260x32.size a
  k0_off4_inb : ∀ i : grid0.Coords, ∀ (r : Fin 5), ∀ a, (k0_off4 i (BitVec.ofNat 32 r.val)) a + S1x32x256x32.size a ≤ S1x260x260x32.size a
  k0_off5_inb : ∀ i : grid0.Coords, ∀ (r : Fin 5), ∀ a, (k0_off5 i (BitVec.ofNat 32 r.val)) a + S1x32x256x32.size a ≤ S1x260x260x32.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x260x260x32.size a ≤ S4x260x260x32.size a
  hwx0_0 : ∀ i : grid0.Coords, EltTy.bits .f32 = 32 ∨ (Rect.block (s := S4x260x260x32) S1x260x260x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x256x25.size a ≤ S4x256x256x25.size a
  hwx0_1 : ∀ i : grid0.Coords, EltTy.bits .f32 = 32 ∨ (Rect.block (s := S4x256x256x25) S1x32x256x25.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x256x32.size a ≤ S4x256x256x32.size a
  hwx0_3 : ∀ i : grid0.Coords, EltTy.bits .f32 = 32 ∨ (Rect.block (s := S4x256x256x32) S1x32x256x32.size (cc0_transform_3 i) (hinb0_3 i)).WholeWords (EltTy.packing .f32)

variable [Facts₀]

abbrev win0_0 : Pipeline.Window sig grid0 :=
  Pipeline.Window.ofSpec (Memref.whole main_v0) S1x260x260x32.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x32x256x25.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x32x256x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x256x256x32 : Shape := ⟨4, ![4, 256, 256, 32]⟩
abbrev S4x256x256x25 : Shape := ⟨4, ![4, 256, 256, 25]⟩
abbrev S32 : Shape := ⟨1, ![32]⟩
abbrev S_ : Shape := ⟨0, ![]⟩
abbrev S4x260x260x32 : Shape := ⟨4, ![4, 260, 260, 32]⟩
abbrev S4x256x256x1 : Shape := ⟨4, ![4, 256, 256, 1]⟩
abbrev S4x256x256 : Shape := ⟨3, ![4, 256, 256]⟩
abbrev S1x1x1x32 : Shape := ⟨4, ![1, 1, 1, 32]⟩

abbrev nBuf : Space → Nat
  | .hbm => 186
  | .vmem => 0
  | .smem => 0
  | _ => 0

abbrev hbmTy0_0 (i : Nat) : BufTy := match i % 128 with
  | 0 => ⟨S4x256x256x32, .f32⟩
  | 1 => ⟨S4x256x256x25, .f32⟩
  | 2 => ⟨S32, .f32⟩
  | 3 => ⟨S_, .i32⟩
  | 4 => ⟨S_, .f32⟩
  | 5 => ⟨S4x260x260x32, .f32⟩
  | 6 => ⟨S_, .f32⟩
  | 7 => ⟨S4x256x256x32, .f32⟩
  | 8 => ⟨S4x256x256x1, .f32⟩
  | 9 => ⟨S4x256x256, .f32⟩
  | 10 => ⟨S4x256x256x1, .f32⟩
  | 11 => ⟨S4x256x256x32, .f32⟩
  | 12 => ⟨S4x256x256x32, .f32⟩
  | 13 => ⟨S4x256x256x32, .f32⟩
  | 14 => ⟨S4x256x256x32, .f32⟩
  | 15 => ⟨S4x256x256x1, .f32⟩
  | 16 => ⟨S4x256x256, .f32⟩
  | 17 => ⟨S4x256x256x1, .f32⟩
  | 18 => ⟨S4x256x256x32, .f32⟩
  | 19 => ⟨S4x256x256x32, .f32⟩
  | 20 => ⟨S4x256x256x32, .f32⟩
  | 21 => ⟨S4x256x256x32, .f32⟩
  | 22 => ⟨S4x256x256x1, .f32⟩
  | 23 => ⟨S4x256x256, .f32⟩
  | 24 => ⟨S4x256x256x1, .f32⟩
  | 25 => ⟨S4x256x256x32, .f32⟩
  | 26 => ⟨S4x256x256x32, .f32⟩
  | 27 => ⟨S4x256x256x32, .f32⟩
  | 28 => ⟨S4x256x256x32, .f32⟩
  | 29 => ⟨S4x256x256x1, .f32⟩
  | 30 => ⟨S4x256x256, .f32⟩
  | 31 => ⟨S4x256x256x1, .f32⟩
  | 32 => ⟨S4x256x256x32, .f32⟩
  | 33 => ⟨S4x256x256x32, .f32⟩
  | 34 => ⟨S4x256x256x32, .f32⟩
  | 35 => ⟨S4x256x256x32, .f32⟩
  | 36 => ⟨S4x256x256x1, .f32⟩
  | 37 => ⟨S4x256x256, .f32⟩
  | 38 => ⟨S4x256x256x1, .f32⟩
  | 39 => ⟨S4x256x256x32, .f32⟩
  | 40 => ⟨S4x256x256x32, .f32⟩
  | 41 => ⟨S4x256x256x32, .f32⟩
  | 42 => ⟨S4x256x256x32, .f32⟩
  | 43 => ⟨S4x256x256x1, .f32⟩
  | 44 => ⟨S4x256x256, .f32⟩
  | 45 => ⟨S4x256x256x1, .f32⟩
  | 46 => ⟨S4x256x256x32, .f32⟩
  | 47 => ⟨S4x256x256x32, .f32⟩
  | 48 => ⟨S4x256x256x32, .f32⟩
  | 49 => ⟨S4x256x256x32, .f32⟩
  | 50 => ⟨S4x256x256x1, .f32⟩
  | 51 => ⟨S4x256x256, .f32⟩
  | 52 => ⟨S4x256x256x1, .f32⟩
  | 53 => ⟨S4x256x256x32, .f32⟩
  | 54 => ⟨S4x256x256x32, .f32⟩
  | 55 => ⟨S4x256x256x32, .f32⟩
  | 56 => ⟨S4x256x256x32, .f32⟩
  | 57 => ⟨S4x256x256x1, .f32⟩
  | 58 => ⟨S4x256x256, .f32⟩
  | 59 => ⟨S4x256x256x1, .f32⟩
  | 60 => ⟨S4x256x256x32, .f32⟩
  | 61 => ⟨S4x256x256x32, .f32⟩
  | 62 => ⟨S4x256x256x32, .f32⟩
  | 63 => ⟨S4x256x256x32, .f32⟩
  | 64 => ⟨S4x256x256x1, .f32⟩
  | 65 => ⟨S4x256x256, .f32⟩
  | 66 => ⟨S4x256x256x1, .f32⟩
  | 67 => ⟨S4x256x256x32, .f32⟩
  | 68 => ⟨S4x256x256x32, .f32⟩
  | 69 => ⟨S4x256x256x32, .f32⟩
  | 70 => ⟨S4x256x256x32, .f32⟩
  | 71 => ⟨S4x256x256x1, .f32⟩
  | 72 => ⟨S4x256x256, .f32⟩
  | 73 => ⟨S4x256x256x1, .f32⟩
  | 74 => ⟨S4x256x256x32, .f32⟩
  | 75 => ⟨S4x256x256x32, .f32⟩
  | 76 => ⟨S4x256x256x32, .f32⟩
  | 77 => ⟨S4x256x256x32, .f32⟩
  | 78 => ⟨S4x256x256x1, .f32⟩
  | 79 => ⟨S4x256x256, .f32⟩
  | 80 => ⟨S4x256x256x1, .f32⟩
  | 81 => ⟨S4x256x256x32, .f32⟩
  | 82 => ⟨S4x256x256x32, .f32⟩
  | 83 => ⟨S4x256x256x32, .f32⟩
  | 84 => ⟨S4x256x256x32, .f32⟩
  | 85 => ⟨S4x256x256x1, .f32⟩
  | 86 => ⟨S4x256x256, .f32⟩
  | 87 => ⟨S4x256x256x1, .f32⟩
  | 88 => ⟨S4x256x256x32, .f32⟩
  | 89 => ⟨S4x256x256x32, .f32⟩
  | 90 => ⟨S4x256x256x32, .f32⟩
  | 91 => ⟨S4x256x256x32, .f32⟩
  | 92 => ⟨S4x256x256x1, .f32⟩
  | 93 => ⟨S4x256x256, .f32⟩
  | 94 => ⟨S4x256x256x1, .f32⟩
  | 95 => ⟨S4x256x256x32, .f32⟩
  | 96 => ⟨S4x256x256x32, .f32⟩
  | 97 => ⟨S4x256x256x32, .f32⟩
  | 98 => ⟨S4x256x256x32, .f32⟩
  | 99 => ⟨S4x256x256x1, .f32⟩
  | 100 => ⟨S4x256x256, .f32⟩
  | 101 => ⟨S4x256x256x1, .f32⟩
  | 102 => ⟨S4x256x256x32, .f32⟩
  | 103 => ⟨S4x256x256x32, .f32⟩
  | 104 => ⟨S4x256x256x32, .f32⟩
  | 105 => ⟨S4x256x256x32, .f32⟩
  | 106 => ⟨S4x256x256x1, .f32⟩
  | 107 => ⟨S4x256x256, .f32⟩
  | 108 => ⟨S4x256x256x1, .f32⟩
  | 109 => ⟨S4x256x256x32, .f32⟩
  | 110 => ⟨S4x256x256x32, .f32⟩
  | 111 => ⟨S4x256x256x32, .f32⟩
  | 112 => ⟨S4x256x256x32, .f32⟩
  | 113 => ⟨S4x256x256x1, .f32⟩
  | 114 => ⟨S4x256x256, .f32⟩
  | 115 => ⟨S4x256x256x1, .f32⟩
  | 116 => ⟨S4x256x256x32, .f32⟩
  | 117 => ⟨S4x256x256x32, .f32⟩
  | 118 => ⟨S4x256x256x32, .f32⟩
  | 119 => ⟨S4x256x256x32, .f32⟩
  | 120 => ⟨S4x256x256x1, .f32⟩
  | 121 => ⟨S4x256x256, .f32⟩
  | 122 => ⟨S4x256x256x1, .f32⟩
  | 123 => ⟨S4x256x256x32, .f32⟩
  | 124 => ⟨S4x256x256x32, .f32⟩
  | 125 => ⟨S4x256x256x32, .f32⟩
  | 126 => ⟨S4x256x256x32, .f32⟩
  | 127 => ⟨S4x256x256x1, .f32⟩
  | _ => ⟨S4x256x256x32, .f32⟩

abbrev hbmTy0_1 (i : Nat) : BufTy := match i % 128 with
  | 0 => ⟨S4x256x256, .f32⟩
  | 1 => ⟨S4x256x256x1, .f32⟩
  | 2 => ⟨S4x256x256x32, .f32⟩
  | 3 => ⟨S4x256x256x32, .f32⟩
  | 4 => ⟨S4x256x256x32, .f32⟩
  | 5 => ⟨S4x256x256x32, .f32⟩
  | 6 => ⟨S4x256x256x1, .f32⟩
  | 7 => ⟨S4x256x256, .f32⟩
  | 8 => ⟨S4x256x256x1, .f32⟩
  | 9 => ⟨S4x256x256x32, .f32⟩
  | 10 => ⟨S4x256x256x32, .f32⟩
  | 11 => ⟨S4x256x256x32, .f32⟩
  | 12 => ⟨S4x256x256x32, .f32⟩
  | 13 => ⟨S4x256x256x1, .f32⟩
  | 14 => ⟨S4x256x256, .f32⟩
  | 15 => ⟨S4x256x256x1, .f32⟩
  | 16 => ⟨S4x256x256x32, .f32⟩
  | 17 => ⟨S4x256x256x32, .f32⟩
  | 18 => ⟨S4x256x256x32, .f32⟩
  | 19 => ⟨S4x256x256x32, .f32⟩
  | 20 => ⟨S4x256x256x1, .f32⟩
  | 21 => ⟨S4x256x256, .f32⟩
  | 22 => ⟨S4x256x256x1, .f32⟩
  | 23 => ⟨S4x256x256x32, .f32⟩
  | 24 => ⟨S4x256x256x32, .f32⟩
  | 25 => ⟨S4x256x256x32, .f32⟩
  | 26 => ⟨S4x256x256x32, .f32⟩
  | 27 => ⟨S4x256x256x1, .f32⟩
  | 28 => ⟨S4x256x256, .f32⟩
  | 29 => ⟨S4x256x256x1, .f32⟩
  | 30 => ⟨S4x256x256x32, .f32⟩
  | 31 => ⟨S4x256x256x32, .f32⟩
  | 32 => ⟨S4x256x256x32, .f32⟩
  | 33 => ⟨S4x256x256x32, .f32⟩
  | 34 => ⟨S4x256x256x1, .f32⟩
  | 35 => ⟨S4x256x256, .f32⟩
  | 36 => ⟨S4x256x256x1, .f32⟩
  | 37 => ⟨S4x256x256x32, .f32⟩
  | 38 => ⟨S4x256x256x32, .f32⟩
  | 39 => ⟨S4x256x256x32, .f32⟩
  | 40 => ⟨S4x256x256x32, .f32⟩
  | 41 => ⟨S4x256x256x1, .f32⟩
  | 42 => ⟨S4x256x256, .f32⟩
  | 43 => ⟨S4x256x256x1, .f32⟩
  | 44 => ⟨S4x256x256x32, .f32⟩
  | 45 => ⟨S4x256x256x32, .f32⟩
  | 46 => ⟨S4x256x256x32, .f32⟩
  | 47 => ⟨S4x256x256x32, .f32⟩
  | 48 => ⟨S4x256x256x1, .f32⟩
  | 49 => ⟨S4x256x256, .f32⟩
  | 50 => ⟨S4x256x256x1, .f32⟩
  | 51 => ⟨S4x256x256x32, .f32⟩
  | 52 => ⟨S4x256x256x32, .f32⟩
  | 53 => ⟨S4x256x256x32, .f32⟩
  | 54 => ⟨S4x256x256x32, .f32⟩
  | 55 => ⟨S1x1x1x32, .f32⟩
  | 56 => ⟨S4x256x256x32, .f32⟩
  | 57 => ⟨S4x256x256x32, .f32⟩
  | _ => ⟨S4x256x256x32, .f32⟩

abbrev hbmTy (i : Nat) : BufTy := match i / 128 with
  | 0 => hbmTy0_0 i
  | 1 => hbmTy0_1 i
  | _ => ⟨S4x256x256x32, .f32⟩

abbrev bufTy : (tb : Table) → Fin (tcTables nBuf tb) → BufTy
  | .hbm, ⟨i, _⟩ => hbmTy i
  | _, _ => ⟨S4x256x256x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩
abbrev main_v113 : Ref sig .tc := ⟨.hbm, 119, rfl⟩
abbrev main_v114 : Ref sig .tc := ⟨.hbm, 120, rfl⟩
abbrev main_v115 : Ref sig .tc := ⟨.hbm, 121, rfl⟩
abbrev main_v116 : Ref sig .tc := ⟨.hbm, 122, rfl⟩
abbrev main_v117 : Ref sig .tc := ⟨.hbm, 123, rfl⟩
abbrev main_v118 : Ref sig .tc := ⟨.hbm, 124, rfl⟩
abbrev main_v119 : Ref sig .tc := ⟨.hbm, 125, rfl⟩
abbrev main_v120 : Ref sig .tc := ⟨.hbm, 126, rfl⟩
abbrev main_v121 : Ref sig .tc := ⟨.hbm, 127, rfl⟩
abbrev main_v122 : Ref sig .tc := ⟨.hbm, 128, rfl⟩
abbrev main_v123 : Ref sig .tc := ⟨.hbm, 129, rfl⟩
abbrev main_v124 : Ref sig .tc := ⟨.hbm, 130, rfl⟩
abbrev main_v125 : Ref sig .tc := ⟨.hbm, 131, rfl⟩
abbrev main_v126 : Ref sig .tc := ⟨.hbm, 132, rfl⟩
abbrev main_v127 : Ref sig .tc := ⟨.hbm, 133, rfl⟩
abbrev main_v128 : Ref sig .tc := ⟨.hbm, 134, rfl⟩
abbrev main_v129 : Ref sig .tc := ⟨.hbm, 135, rfl⟩
abbrev main_v130 : Ref sig .tc := ⟨.hbm, 136, rfl⟩
abbrev main_v131 : Ref sig .tc := ⟨.hbm, 137, rfl⟩
abbrev main_v132 : Ref sig .tc := ⟨.hbm, 138, rfl⟩
abbrev main_v133 : Ref sig .tc := ⟨.hbm, 139, rfl⟩
abbrev main_v134 : Ref sig .tc := ⟨.hbm, 140, rfl⟩
abbrev main_v135 : Ref sig .tc := ⟨.hbm, 141, rfl⟩
abbrev main_v136 : Ref sig .tc := ⟨.hbm, 142, rfl⟩
abbrev main_v137 : Ref sig .tc := ⟨.hbm, 143, rfl⟩
abbrev main_v138 : Ref sig .tc := ⟨.hbm, 144, rfl⟩
abbrev main_v139 : Ref sig .tc := ⟨.hbm, 145, rfl⟩
abbrev main_v140 : Ref sig .tc := ⟨.hbm, 146, rfl⟩
abbrev main_v141 : Ref sig .tc := ⟨.hbm, 147, rfl⟩
abbrev main_v142 : Ref sig .tc := ⟨.hbm, 148, rfl⟩
abbrev main_v143 : Ref sig .tc := ⟨.hbm, 149, rfl⟩
abbrev main_v144 : Ref sig .tc := ⟨.hbm, 150, rfl⟩
abbrev main_v145 : Ref sig .tc := ⟨.hbm, 151, rfl⟩
abbrev main_v146 : Ref sig .tc := ⟨.hbm, 152, rfl⟩
abbrev main_v147 : Ref sig .tc := ⟨.hbm, 153, rfl⟩
abbrev main_v148 : Ref sig .tc := ⟨.hbm, 154, rfl⟩
abbrev main_v149 : Ref sig .tc := ⟨.hbm, 155, rfl⟩
abbrev main_v150 : Ref sig .tc := ⟨.hbm, 156, rfl⟩
abbrev main_v151 : Ref sig .tc := ⟨.hbm, 157, rfl⟩
abbrev main_v152 : Ref sig .tc := ⟨.hbm, 158, rfl⟩
abbrev main_v153 : Ref sig .tc := ⟨.hbm, 159, rfl⟩
abbrev main_v154 : Ref sig .tc := ⟨.hbm, 160, rfl⟩
abbrev main_v155 : Ref sig .tc := ⟨.hbm, 161, rfl⟩
abbrev main_v156 : Ref sig .tc := ⟨.hbm, 162, rfl⟩
abbrev main_v157 : Ref sig .tc := ⟨.hbm, 163, rfl⟩
abbrev main_v158 : Ref sig .tc := ⟨.hbm, 164, rfl⟩
abbrev main_v159 : Ref sig .tc := ⟨.hbm, 165, rfl⟩
abbrev main_v160 : Ref sig .tc := ⟨.hbm, 166, rfl⟩
abbrev main_v161 : Ref sig .tc := ⟨.hbm, 167, rfl⟩
abbrev main_v162 : Ref sig .tc := ⟨.hbm, 168, rfl⟩
abbrev main_v163 : Ref sig .tc := ⟨.hbm, 169, rfl⟩
abbrev main_v164 : Ref sig .tc := ⟨.hbm, 170, rfl⟩
abbrev main_v165 : Ref sig .tc := ⟨.hbm, 171, rfl⟩
abbrev main_v166 : Ref sig .tc := ⟨.hbm, 172, rfl⟩
abbrev main_v167 : Ref sig .tc := ⟨.hbm, 173, rfl⟩
abbrev main_v168 : Ref sig .tc := ⟨.hbm, 174, rfl⟩
abbrev main_v169 : Ref sig .tc := ⟨.hbm, 175, rfl⟩
abbrev main_v170 : Ref sig .tc := ⟨.hbm, 176, rfl⟩
abbrev main_v171 : Ref sig .tc := ⟨.hbm, 177, rfl⟩
abbrev main_v172 : Ref sig .tc := ⟨.hbm, 178, rfl⟩
abbrev main_v173 : Ref sig .tc := ⟨.hbm, 179, rfl⟩
abbrev main_v174 : Ref sig .tc := ⟨.hbm, 180, rfl⟩
abbrev main_v175 : Ref sig .tc := ⟨.hbm, 181, rfl⟩
abbrev main_v176 : Ref sig .tc := ⟨.hbm, 182, rfl⟩
abbrev main_v177 : Ref sig .tc := ⟨.hbm, 183, rfl⟩
abbrev main_v178 : Ref sig .tc := ⟨.hbm, 184, rfl⟩
abbrev main_v179 : Ref sig .tc := ⟨.hbm, 185, rfl⟩

abbrev nD : Nat := 1
abbrev τ : Topo := Topo.v7x

variable {F : FTy → Type} [FloatOps F]

class Facts₀ : Prop where
  pads_S4x256x256x32_S4x260x260x32_000_220_220_000 : S4x256x256x32.Pads (![0, 2, 2, 0] : Fin 4 → Nat) ![0, 2, 2, 0] ![0, 0, 0, 0] S4x260x260x32
  h_S_ : 0 < S_.numel
  bcast_S_S4x256x256x32 : S_.BroadcastsInDim S4x256x256x32 (![] : Fin 0 → Fin S4x256x256x32.rank)
  slices_S4x256x256x25_S4x256x256x1_0_0_0_0 : S4x256x256x25.Slices ![0, 0, 0, 0] S4x256x256x1
  shapeCasts_S4x256x256x1_S4x256x256 : S4x256x256x1.ShapeCasts S4x256x256
  bcast_S4x256x256_S4x256x256x1_0_1_2 : S4x256x256.BroadcastsInDim S4x256x256x1 (![0, 1, 2] : Fin 3 → Fin S4x256x256x1.rank)
  slices_S4x260x260x32_S4x256x256x32_0_0_0_0 : S4x260x260x32.Slices ![0, 0, 0, 0] S4x256x256x32
  bcast_S4x256x256x1_S4x256x256x32_0_1_2_3 : S4x256x256x1.BroadcastsInDim S4x256x256x32 (![0, 1, 2, 3] : Fin 4 → Fin S4x256x256x32.rank)
  slices_S4x256x256x25_S4x256x256x1_0_0_0_1 : S4x256x256x25.Slices ![0, 0, 0, 1] S4x256x256x1
  slices_S4x260x260x32_S4x256x256x32_0_0_1_0 : S4x260x260x32.Slices ![0, 0, 1, 0] S4x256x256x32
  slices_S4x256x256x25_S4x256x256x1_0_0_0_2 : S4x256x256x25.Slices ![0, 0, 0, 2] S4x256x256x1
  slices_S4x260x260x32_S4x256x256x32_0_0_2_0 : S4x260x260x32.Slices ![0, 0, 2, 0] S4x256x256x32
  slices_S4x256x256x25_S4x256x256x1_0_0_0_3 : S4x256x256x25.Slices ![0, 0, 0, 3] S4x256x256x1
  slices_S4x260x260x32_S4x256x256x32_0_0_3_0 : S4x260x260x32.Slices ![0, 0, 3, 0] S4x256x256x32
  slices_S4x256x256x25_S4x256x256x1_0_0_0_4 : S4x256x256x25.Slices ![0, 0, 0, 4] S4x256x256x1
  slices_S4x260x260x32_S4x256x256x32_0_0_4_0 : S4x260x260x32.Slices ![0, 0, 4, 0] S4x256x256x32
  slices_S4x256x256x25_S4x256x256x1_0_0_0_5 : S4x256x256x25.Slices ![0, 0, 0, 5] S4x256x256x1
  slices_S4x260x260x32_S4x256x256x32_0_1_0_0 : S4x260x260x32.Slices ![0, 1, 0, 0] S4x256x256x32
  slices_S4x256x256x25_S4x256x256x1_0_0_0_6 : S4x256x256x25.Slices ![0, 0, 0, 6] S4x256x256x1
  slices_S4x260x260x32_S4x256x256x32_0_1_1_0 : S4x260x260x32.Slices ![0, 1, 1, 0] S4x256x256x32
  slices_S4x256x256x25_S4x256x256x1_0_0_0_7 : S4x256x256x25.Slices ![0, 0, 0, 7] S4x256x256x1
  slices_S4x260x260x32_S4x256x256x32_0_1_2_0 : S4x260x260x32.Slices ![0, 1, 2, 0] S4x256x256x32
  slices_S4x256x256x25_S4x256x256x1_0_0_0_8 : S4x256x256x25.Slices ![0, 0, 0, 8] S4x256x256x1
  slices_S4x260x260x32_S4x256x256x32_0_1_3_0 : S4x260x260x32.Slices ![0, 1, 3, 0] S4x256x256x32
  slices_S4x256x256x25_S4x256x256x1_0_0_0_9 : S4x256x256x25.Slices ![0, 0, 0, 9] S4x256x256x1
  slices_S4x260x260x32_S4x256x256x32_0_1_4_0 : S4x260x260x32.Slices ![0, 1, 4, 0] S4x256x256x32
  slices_S4x256x256x25_S4x256x256x1_0_0_0_10 : S4x256x256x25.Slices ![0, 0, 0, 10] S4x256x256x1
  slices_S4x260x260x32_S4x256x256x32_0_2_0_0 : S4x260x260x32.Slices ![0, 2, 0, 0] S4x256x256x32
  slices_S4x256x256x25_S4x256x256x1_0_0_0_11 : S4x256x256x25.Slices ![0, 0, 0, 11] S4x256x256x1
  slices_S4x260x260x32_S4x256x256x32_0_2_1_0 : S4x260x260x32.Slices ![0, 2, 1, 0] S4x256x256x32
  slices_S4x256x256x25_S4x256x256x1_0_0_0_12 : S4x256x256x25.Slices ![0, 0, 0, 12] S4x256x256x1
  slices_S4x260x260x32_S4x256x256x32_0_2_2_0 : S4x260x260x32.Slices ![0, 2, 2, 0] S4x256x256x32
  slices_S4x256x256x25_S4x256x256x1_0_0_0_13 : S4x256x256x25.Slices ![0, 0, 0, 13] S4x256x256x1
  slices_S4x260x260x32_S4x256x256x32_0_2_3_0 : S4x260x260x32.Slices ![0, 2, 3, 0] S4x256x256x32
  slices_S4x256x256x25_S4x256x256x1_0_0_0_14 : S4x256x256x25.Slices ![0, 0, 0, 14] S4x256x256x1
  slices_S4x260x260x32_S4x256x256x32_0_2_4_0 : S4x260x260x32.Slices ![0, 2, 4, 0] S4x256x256x32
  slices_S4x256x256x25_S4x256x256x1_0_0_0_15 : S4x256x256x25.Slices ![0, 0, 0, 15] S4x256x256x1
  slices_S4x260x260x32_S4x256x256x32_0_3_0_0 : S4x260x260x32.Slices ![0, 3, 0, 0] S4x256x256x32
  slices_S4x256x256x25_S4x256x256x1_0_0_0_16 : S4x256x256x25.Slices ![0, 0, 0, 16] S4x256x256x1
  slices_S4x260x260x32_S4x256x256x32_0_3_1_0 : S4x260x260x32.Slices ![0, 3, 1, 0] S4x256x256x32
  slices_S4x256x256x25_S4x256x256x1_0_0_0_17 : S4x256x256x25.Slices ![0, 0, 0, 17] S4x256x256x1
  slices_S4x260x260x32_S4x256x256x32_0_3_2_0 : S4x260x260x32.Slices ![0, 3, 2, 0] S4x256x256x32
  slices_S4x256x256x25_S4x256x256x1_0_0_0_18 : S4x256x256x25.Slices ![0, 0, 0, 18] S4x256x256x1
  slices_S4x260x260x32_S4x256x256x32_0_3_3_0 : S4x260x260x32.Slices ![0, 3, 3, 0] S4x256x256x32
  slices_S4x256x256x25_S4x256x256x1_0_0_0_19 : S4x256x256x25.Slices ![0, 0, 0, 19] S4x256x256x1
  slices_S4x260x260x32_S4x256x256x32_0_3_4_0 : S4x260x260x32.Slices ![0, 3, 4, 0] S4x256x256x32
  slices_S4x256x256x25_S4x256x256x1_0_0_0_20 : S4x256x256x25.Slices ![0, 0, 0, 20] S4x256x256x1
  slices_S4x260x260x32_S4x256x256x32_0_4_0_0 : S4x260x260x32.Slices ![0, 4, 0, 0] S4x256x256x32
  slices_S4x256x256x25_S4x256x256x1_0_0_0_21 : S4x256x256x25.Slices ![0, 0, 0, 21] S4x256x256x1
  slices_S4x260x260x32_S4x256x256x32_0_4_1_0 : S4x260x260x32.Slices ![0, 4, 1, 0] S4x256x256x32
  slices_S4x256x256x25_S4x256x256x1_0_0_0_22 : S4x256x256x25.Slices ![0, 0, 0, 22] S4x256x256x1
  slices_S4x260x260x32_S4x256x256x32_0_4_2_0 : S4x260x260x32.Slices ![0, 4, 2, 0] S4x256x256x32
  slices_S4x256x256x25_S4x256x256x1_0_0_0_23 : S4x256x256x25.Slices ![0, 0, 0, 23] S4x256x256x1
  slices_S4x260x260x32_S4x256x256x32_0_4_3_0 : S4x260x260x32.Slices ![0, 4, 3, 0] S4x256x256x32
  slices_S4x256x256x25_S4x256x256x1_0_0_0_24 : S4x256x256x25.Slices ![0, 0, 0, 24] S4x256x256x1
  slices_S4x260x260x32_S4x256x256x32_0_4_4_0 : S4x260x260x32.Slices ![0, 4, 4, 0] S4x256x256x32
  bcast_S32_S1x1x1x32_3 : S32.BroadcastsInDim S1x1x1x32 (![3] : Fin 1 → Fin S1x1x1x32.rank)
  bcast_S1x1x1x32_S4x256x256x32_0_1_2_3 : S1x1x1x32.BroadcastsInDim S4x256x256x32 (![0, 1, 2, 3] : Fin 4 → Fin S4x256x256x32.rank)

variable [Facts₀]

class Facts : Prop extends Facts₀ where

variable [Facts]
-- ==== Proof.TileLayout.lean ====
/-
  The kernel body's layout operations, each read at one entry of a 32 × 256 × 32 tile.

  One grid point computes a tile of 32 rows of one batch element: `(r, w, c)` with `r` the row inside the tile. Its
  operands arrive as blocks with a leading unit axis. At `(r, w, c)`:

    * a loaded patch `[1, 32, 256, 32]` viewed `[32, 256, 32]` reads the patch at `(0, r, w, c)`             (`patch_apply`),
    * a loaded weight column `[1, 32, 256, 1]` viewed `[32, 256]`, then `[32, 256, 1]`, then spread over the
      channels reads the column at `(0, r, w, 0)`, whatever the channel                                     (`spread_apply`),
    * the bias `[32]` viewed `[1, 1, 32]` and spread over rows and columns reads the bias at `c`            (`biasSpread_apply`),
    * and the finished tile viewed `[1, 32, 256, 32]` for the store reads, at `(0, r, w, c)`, the tile at
      `(r, w, c)`                                                                                          (`stored_apply`).

  All four are re-layouts: the row-major position is kept by a shape cast, and a spread reads coordinate 0 along a
  unit axis. They hold for entries of any type.

  The body's loads, read at one entry (a load through a unit-stride rectangle reads the buffer at the rectangle's
  offset plus the entry's own coordinate, axis by axis):

    * a patch — 32 rows by 256 columns of the padded block, starting `32·t₁ + di` rows and `dj` columns in — reads the
      block at `(0, di + (32·t₁ + r), dj + w, c)`                                            (`patchRead_eq`, `patchAt_apply`),
    * the weight column of tap `n` reads the weights block at `(0, r, w, n)`              (`weightRead_eq`, `weightAt_apply`),
    * the bias is loaded whole                                                                          (`biasRead_eq`).
-/
import proofs.«174641_j80814104641711_2_alg».proof.KernelIdeal
import Idealize.ShloMosaic.Lib.Pipeline.Value
import Idealize.ShloMosaic.Lib.ValueIdx
import Idealize.ShloMosaic.Lib.Pipeline.FrameBody
import Idealize.ShloMosaic.Lib.Pipeline.Frame

noncomputable section

namespace Cert.KernelIdeal.TileValue

open Cert.KernelIdeal Idealize.ShloMosaic Idealize.ShloMosaic.ValueIdx

variable {α : Type} (r : Fin 32) (w : Fin 256) (ch : Fin 32)

/-- A patch block viewed without its leading unit axis. -/
theorem patch_apply (p : S1x32x256x32.Idx → α) (h1 : S1x32x256x32.ShapeCasts S32x256x32) :
    shapeCast S32x256x32 p h1 (ix3 r w ch) = p (ix4 (0 : Fin 1) r w ch) :=
  shapeCast_apply p h1 (ix3 r w ch) (ix4 (0 : Fin 1) r w ch) (by
    rewrite [Shape.rowMajor_val_four, Shape.rowMajor_val_three]
    show ((0 * 32 + r.val) * 256 + w.val) * 32 + ch.val = (r.val * 256 + w.val) * 32 + ch.val
    omega)

/-- A weight column block viewed as a matrix, then as a column again, then spread over the 32 channels. -/
theorem spread_apply (q : S1x32x256x1.Idx → α) (h2 : S1x32x256x1.ShapeCasts S32x256) (h3 : S32x256.ShapeCasts S32x256x1)
    (h4 : S32x256x1.Broadcasts S32x256x32) :
    broadcastTo S32x256x32 (shapeCast S32x256x1 (shapeCast S32x256 q h2) h3) h4 (ix3 r w ch)
      = q (ix4 (0 : Fin 1) r w (0 : Fin 1)) := by
  refine (broadcastTo_apply _ h4 (ix3 r w ch) (ix3 r w (0 : Fin 1)) (fun a => match a with
    | ⟨0, _⟩ => by show r.val = if (32 : Nat) = 1 then 0 else r.val; rw [if_neg (by decide)]
    | ⟨1, _⟩ => by show w.val = if (256 : Nat) = 1 then 0 else w.val; rw [if_neg (by decide)]
    | ⟨2, _⟩ => by show (0 : Nat) = if (1 : Nat) = 1 then 0 else ch.val; rw [if_pos rfl])).trans ?_
  refine (shapeCast_apply _ h3 (ix3 r w (0 : Fin 1)) (ix2 r w) (by
    rewrite [Shape.rowMajor_val_two, Shape.rowMajor_val_three]
    show r.val * 256 + w.val = (r.val * 256 + w.val) * 1 + 0
    omega)).trans ?_
  exact shapeCast_apply q h2 (ix2 r w) (ix4 (0 : Fin 1) r w (0 : Fin 1)) (by
    rewrite [Shape.rowMajor_val_four, Shape.rowMajor_val_two]
    show ((0 * 32 + r.val) * 256 + w.val) * 1 + 0 = r.val * 256 + w.val
    omega)

/-- The bias viewed `[1, 1, 32]` and spread over the tile's rows and columns. -/
theorem biasSpread_apply (v : S32.Idx → α) (h5 : S32.ShapeCasts S1x1x32) (h6 : S1x1x32.Broadcasts S32x256x32) :
    broadcastTo S32x256x32 (shapeCast S1x1x32 v h5) h6 (ix3 r w ch) = v (ix1 ch) := by
  refine (broadcastTo_apply _ h6 (ix3 r w ch) (ix3 (0 : Fin 1) (0 : Fin 1) ch) (fun a => match a with
    | ⟨0, _⟩ => by show (0 : Nat) = if (1 : Nat) = 1 then 0 else r.val; rw [if_pos rfl]
    | ⟨1, _⟩ => by show (0 : Nat) = if (1 : Nat) = 1 then 0 else w.val; rw [if_pos rfl]
    | ⟨2, _⟩ => by show ch.val = if (32 : Nat) = 1 then 0 else ch.val; rw [if_neg (by decide)])).trans ?_
  exact shapeCast_apply v h5 (ix3 (0 : Fin 1) (0 : Fin 1) ch) (ix1 ch) (by
    rewrite [Shape.rowMajor_val_one, Shape.rowMajor_val_three]
    show ch.val = (0 * 1 + 0) * 32 + ch.val
    omega)

/-- The finished tile viewed with a leading unit axis, as it is stored. -/
theorem stored_apply (v : S32x256x32.Idx → α) (h7 : S32x256x32.ShapeCasts S1x32x256x32) :
    shapeCast S1x32x256x32 v h7 (ix4 (0 : Fin 1) r w ch) = v (ix3 r w ch) :=
  shapeCast_apply v h7 (ix4 (0 : Fin 1) r w ch) (ix3 r w ch) (by
    rewrite [Shape.rowMajor_val_three, Shape.rowMajor_val_four]
    show (r.val * 256 + w.val) * 32 + ch.val = ((0 * 32 + r.val) * 256 + w.val) * 32 + ch.val
    omega)

/-! ## The loads -/

variable {Val : EltTy → Type} {e : EltTy}

theorem zeros1 : (![0] : Fin 1 → Nat) = fun _ => 0 := funext fun a => by fin_cases a; rfl
theorem zeros4 : (![0, 0, 0, 0] : Fin 4 → Nat) = fun _ => 0 := funext fun a => by fin_cases a <;> rfl

/-- The patch of the padded block that starts `32·t₁ + di` rows and `dj` columns in, as a function of the tile's
    entry: `(·, r, w, c) ↦ block (0, di + (32·t₁ + r), dj + w, c)`. With `t₁ < 8`, `di, dj < 5`, `r < 32`, `w < 256`
    the row is at most `4 + 224 + 31 = 259` and the column at most `4 + 255 = 259`: inside the 260 × 260 block. -/
def patchAt (x0 : S1x260x260x32.Idx → Val e) (t1 : Fin 8) (di dj : Fin 5) : S1x32x256x32.Idx → Val e := fun y =>
  x0 (ix4 (0 : Fin 1)
    ⟨di.val + (32 * t1.val + (y 1).val), by have := di.isLt; have := t1.isLt; have h : (y 1).val < 32 := (y 1).isLt; omega⟩
    ⟨dj.val + (y 2).val, by have := dj.isLt; have h : (y 2).val < 256 := (y 2).isLt; omega⟩
    ⟨(y 3).val, (y 3).isLt⟩)

theorem patchAt_apply (x0 : S1x260x260x32.Idx → Val e) (t1 : Fin 8) (di dj : Fin 5) :
    patchAt x0 t1 di dj (ix4 (0 : Fin 1) r w ch)
      = x0 (ix4 (0 : Fin 1)
          ⟨di.val + (32 * t1.val + r.val), by have := di.isLt; have := t1.isLt; have := r.isLt; omega⟩
          ⟨dj.val + w.val, by have := dj.isLt; have := w.isLt; omega⟩ ch) := rfl

/-- A load of the padded block through the 32 × 256 × 32 rectangle at offsets `(0, 32·t₁ + di, dj, 0)`, however the
    offsets are spelt (`hoff`), reads `patchAt`: a load reads the buffer at offset plus own coordinate on each axis. -/
theorem patchRead_eq (a2 : Memref sig .tc .vmem S1x260x260x32 e) (h2 : a2.IsWhole) (x0 : S1x260x260x32.Idx → Val e)
    (off : Fin 4 → Nat) (t1 : Fin 8) (di dj : Fin 5) (hoff : off = ![0, 32 * t1.val + di.val, dj.val, 0])
    (inb : ∀ a, off a + (![1, 32, 256, 32] : Fin 4 → Nat) a ≤ S1x260x260x32.size a) :
    View.readAt Val a2.view (Rect.unit (s := S1x260x260x32) off ![1, 32, 256, 32] inb).toLoadRect (h2.unread x0)
      = patchAt x0 t1 di dj := by
  subst hoff
  rw [View.readAt_eq_ld, h2.read_unread]
  funext y
  show x0 _ = x0 _
  refine congrArg x0 (funext fun a => Fin.ext ?_)
  have hy0 : (y 0).val < 1 := (y 0).isLt
  match a with
  | ⟨0, _⟩ => show 0 + 1 * (y 0).val = 0; omega
  | ⟨1, _⟩ => show 32 * t1.val + di.val + 1 * (y 1).val = di.val + (32 * t1.val + (y 1).val); omega
  | ⟨2, _⟩ => show dj.val + 1 * (y 2).val = dj.val + (y 2).val; omega
  | ⟨3, _⟩ => show 0 + 1 * (y 3).val = (y 3).val; omega

/-- The weight column of tap `n` as a function of the tile's entry: `(·, r, w, ·) ↦ block (0, r, w, n)`. -/
def weightAt (x1 : S1x32x256x25.Idx → Val e) (n : Fin 25) : S1x32x256x1.Idx → Val e := fun y =>
  x1 (ix4 (0 : Fin 1) ⟨(y 1).val, (y 1).isLt⟩ ⟨(y 2).val, (y 2).isLt⟩ n)

theorem weightAt_apply (x1 : S1x32x256x25.Idx → Val e) (n : Fin 25) :
    weightAt x1 n (ix4 (0 : Fin 1) r w (0 : Fin 1)) = x1 (ix4 (0 : Fin 1) r w n) := rfl

/-- A load of the weights block through the 32 × 256 × 1 rectangle at offsets `(0, 0, 0, n)` reads `weightAt`. -/
theorem weightRead_eq (a3 : Memref sig .tc .vmem S1x32x256x25 e) (h3 : a3.IsWhole) (x1 : S1x32x256x25.Idx → Val e) (n : Nat)
    (inb : ∀ a, (![0, 0, 0, n] : Fin 4 → Nat) a + (![1, 32, 256, 1] : Fin 4 → Nat) a ≤ S1x32x256x25.size a) :
    View.readAt Val a3.view (Rect.unit (s := S1x32x256x25) ![0, 0, 0, n] ![1, 32, 256, 1] inb).toLoadRect (h3.unread x1)
      = weightAt x1 ⟨n, by have h := inb ⟨3, by decide⟩; have h' : n + 1 ≤ 25 := h; omega⟩ := by
  rw [View.readAt_eq_ld, h3.read_unread]
  funext y
  show x1 _ = x1 _
  refine congrArg x1 (funext fun a => Fin.ext ?_)
  have hy0 : (y 0).val < 1 := (y 0).isLt
  have hy3 : (y 3).val < 1 := (y 3).isLt
  match a with
  | ⟨0, _⟩ => show 0 + 1 * (y 0).val = 0; omega
  | ⟨1, _⟩ => show 0 + 1 * (y 1).val = (y 1).val; omega
  | ⟨2, _⟩ => show 0 + 1 * (y 2).val = (y 2).val; omega
  | ⟨3, _⟩ => show n + 1 * (y 3).val = n; omega

/-- The bias is loaded whole. -/
theorem biasRead_eq (a4 : Memref sig .tc .vmem S32 e) (h4 : a4.IsWhole) (x2 : S32.Idx → Val e)
    (inb : ∀ a, (![0] : Fin 1 → Nat) a + (![32] : Fin 1 → Nat) a ≤ S32.size a) :
    View.readAt Val a4.view (Rect.unit (s := S32) ![0] ![32] inb).toLoadRect (h4.unread x2) = x2 := by
  rw [View.readAt_eq_ld, h4.read_unread]
  exact View.ld_unit_zero (S := S32) zeros1 inb x2

end Cert.KernelIdeal.TileValue

end
-- ==== Proof.PixelConvSpec.lean ====
/-
  The per-pixel predicted convolution as ONE function of three arrays, index by index.

  For a feature map already padded with two rows and two columns of the pad value on each side of its two spatial
  axes, `P : [4, 260, 260, 32]`, per-pixel weights `K : [4, 256, 256, 25]` and a bias `B : [32]`, the result at
  batch `b`, pixel `(h, w)`, channel `c` is

      (((z + P[b, h+0, w+0, c] · K[b, h, w, 0]) + P[b, h+0, w+1, c] · K[b, h, w, 1]) + … + P[b, h+4, w+4, c] · K[b, h, w, 24]) + B[c]

  where `z` is the float word of zero: the 25 taps of the 5 × 5 window, tap `n = 5·di + dj` reading the padded map
  `di` rows and `dj` columns further on, added one after the other from `z` in the order `n = 0, 1, …, 24`, and the
  bias last. The sum is written out in that order and with that grouping (`sum25`), so that no law of the extended
  reals is needed to meet a program that adds the taps in the same order; nothing here asks the entries to be finite.

  `paddedMap` is the host's zero-pad of the feature map, as one term. Also here: an index of the padded map, or of the weights, is determined by its four coordinates (`patchIdx_eq`,
  `tapIdx_eq`), which is how a program's own spelling of "the padded map at (b, h+di, w+dj, c)" is recognised.
-/
import Idealize.ShloMosaic.PureOps.Ideal
import Idealize.ShloMosaic.Lib.ValueIdx

noncomputable section

namespace Cert.PixelConv

open Idealize.ShloMosaic Idealize.ShloMosaic.ValueIdx

/-- The result's shape, the weights', the padded map's and the bias's. -/
abbrev SOut : Shape := ⟨4, ![4, 256, 256, 32]⟩
abbrev SKer : Shape := ⟨4, ![4, 256, 256, 25]⟩
abbrev SPad : Shape := ⟨4, ![4, 260, 260, 32]⟩
abbrev SBias : Shape := ⟨1, ![32]⟩
abbrev SScalar : Shape := ⟨0, ![]⟩

/-- The feature map with two rows and two columns of padding on each side of its two spatial axes, nothing between
    the entries and nothing on the batch and channel axes; the pad value is the integer word 0 converted to f32. Both
    programs pad on the host with exactly this operation, so neither its value at a border index nor what the pad
    value denotes is ever needed: the padded map enters the result only as the array `P` below. -/
def paddedMap (x : SOut.Idx → EReal) : SPad.Idx → EReal :=
  pad SPad ![0, 2, 2, 0] ![0, 2, 2, 0] ![0, 0, 0, 0] x (sitofp (F := Ideal) .f32 (constantI SScalar 32 0#32))

/-- The padded map's index `di` rows and `dj` columns on from pixel `(h, w)`: `(b, di + h, dj + w, c)`. The window has
    5 rows and 5 columns and the map 2 + 256 + 2 of each, so the index is inside. -/
abbrev patchIdx (b : Fin 4) (h w : Fin 256) (c : Fin 32) (di dj : Fin 5) : SPad.Idx :=
  ix4 b ⟨di.val + h.val, by have := di.isLt; have := h.isLt; omega⟩ ⟨dj.val + w.val, by have := dj.isLt; have := w.isLt; omega⟩ c

/-- The weights' index of tap `n` at pixel `(h, w)`: `(b, h, w, n)`. -/
abbrev tapIdx (b : Fin 4) (h w : Fin 256) (n : Fin 25) : SKer.Idx := ix4 b h w n

/-- An index of the padded map whose coordinates are `b`, `di + h`, `dj + w`, `c` is `patchIdx`. -/
theorem patchIdx_eq (b : Fin 4) (h w : Fin 256) (c : Fin 32) (di dj : Fin 5) (j : SPad.Idx)
    (h0 : (j 0).val = b.val) (h1 : (j 1).val = di.val + h.val) (h2 : (j 2).val = dj.val + w.val) (h3 : (j 3).val = c.val) :
    j = patchIdx b h w c di dj := by
  funext a
  match a with
  | ⟨0, _⟩ => exact Fin.ext h0
  | ⟨1, _⟩ => exact Fin.ext h1
  | ⟨2, _⟩ => exact Fin.ext h2
  | ⟨3, _⟩ => exact Fin.ext h3

/-- An index of the weights whose coordinates are `b`, `h`, `w`, `n` is `tapIdx`. -/
theorem tapIdx_eq (b : Fin 4) (h w : Fin 256) (n : Fin 25) (j : SKer.Idx)
    (h0 : (j 0).val = b.val) (h1 : (j 1).val = h.val) (h2 : (j 2).val = w.val) (h3 : (j 3).val = n.val) :
    j = tapIdx b h w n := by
  funext a
  match a with
  | ⟨0, _⟩ => exact Fin.ext h0
  | ⟨1, _⟩ => exact Fin.ext h1
  | ⟨2, _⟩ => exact Fin.ext h2
  | ⟨3, _⟩ => exact Fin.ext h3

/-- The word both programs start their running sum from: the f32 word of zero. -/
abbrev zeroWord : EReal := Ideal.ofBits .f32 0x00000000#32

/-- 25 products added one after the other from the zero word: product `n = 5·di + dj` is `p di dj · k n`, in the order
    `n = 0, 1, …, 24` (`+` associates to the left: the sum below is `(((z + p₀₀·k₀) + p₀₁·k₁) + …) + p₄₄·k₂₄`). The order
    and the grouping of the whole certificate live here, once, for any two families of extended reals. -/
def sum25 (p : Fin 5 → Fin 5 → EReal) (k : Fin 25 → EReal) : EReal :=
  zeroWord
    + p 0 0 * k 0 + p 0 1 * k 1 + p 0 2 * k 2 + p 0 3 * k 3 + p 0 4 * k 4
    + p 1 0 * k 5 + p 1 1 * k 6 + p 1 2 * k 7 + p 1 3 * k 8 + p 1 4 * k 9
    + p 2 0 * k 10 + p 2 1 * k 11 + p 2 2 * k 12 + p 2 3 * k 13 + p 2 4 * k 14
    + p 3 0 * k 15 + p 3 1 * k 16 + p 3 2 * k 17 + p 3 3 * k 18 + p 3 4 * k 19
    + p 4 0 * k 20 + p 4 1 * k 21 + p 4 2 * k 22 + p 4 3 * k 23 + p 4 4 * k 24

/-- Two sums of 25 products over equal families are equal. -/
theorem sum25_congr {p p' : Fin 5 → Fin 5 → EReal} {k k' : Fin 25 → EReal} (hp : ∀ di dj, p di dj = p' di dj)
    (hk : ∀ n, k n = k' n) : sum25 p k = sum25 p' k' := by
  rw [show p = p' from funext fun di => funext fun dj => hp di dj, show k = k' from funext hk]

/-- The 25 taps at batch `b`, pixel `(h, w)`, channel `c`: tap `n = 5·di + dj` multiplies the padded map `di` rows and
    `dj` columns on from the pixel by the pixel's weight `n`. -/
def taps (P : SPad.Idx → EReal) (K : SKer.Idx → EReal) (b : Fin 4) (h w : Fin 256) (c : Fin 32) : EReal :=
  sum25 (fun di dj => P (patchIdx b h w c di dj)) (fun n => K (tapIdx b h w n))

/-- The whole result: at `(b, h, w, c)` the 25 taps, then the bias of channel `c`. -/
def result (P : SPad.Idx → EReal) (K : SKer.Idx → EReal) (B : SBias.Idx → EReal) : SOut.Idx → EReal :=
  fun i => taps P K (i 0) (i 1) (i 2) (i 3) + B (ix1 (i 3))

theorem result_apply (P : SPad.Idx → EReal) (K : SKer.Idx → EReal) (B : SBias.Idx → EReal) (b : Fin 4) (h w : Fin 256) (c : Fin 32) :
    result P K B (ix4 b h w c) = taps P K b h w c + B (ix1 c) := rfl

/-! ## One tile of the result from blocks of the three arrays

A kernel that computes the result tile by tile — batch element `b`, rows `32·t₁ … 32·t₁ + 31` — holds, while it does,
the batch-`b` slab of the padded map (`[1, 260, 260, 32]`), the same 32 rows of the weights (`[1, 32, 256, 25]`) and the
bias. Reading those blocks where the result's definition reads the arrays gives the result's entry: row `r` of the tile
is row `32·t₁ + r` of the result, and the padded row `di + (32·t₁ + r)` is the same number on both sides. -/

abbrev SPadBlock : Shape := ⟨4, ![1, 260, 260, 32]⟩
abbrev SKerBlock : Shape := ⟨4, ![1, 32, 256, 25]⟩

/-- The tile's sum at `(r, w, c)` over blocks `X0`, `X1`, `X2`. -/
def tileEntry (X0 : SPadBlock.Idx → EReal) (X1 : SKerBlock.Idx → EReal) (X2 : SBias.Idx → EReal) (t1 : Fin 8)
    (r : Fin 32) (w : Fin 256) (c : Fin 32) : EReal :=
  sum25 (fun di dj => X0 (ix4 (0 : Fin 1)
            ⟨di.val + (32 * t1.val + r.val), by have := di.isLt; have := t1.isLt; have := r.isLt; omega⟩
            ⟨dj.val + w.val, by have := dj.isLt; have := w.isLt; omega⟩ c))
      (fun n => X1 (ix4 (0 : Fin 1) r w n))
    + X2 (ix1 c)

/-- If the blocks are the slab of the padded map, the tile's rows of the weights and the bias, the tile's entry
    `(r, w, c)` is the result's entry `(b, 32·t₁ + r, w, c)`. -/
theorem tileEntry_eq_result (P : SPad.Idx → EReal) (K : SKer.Idx → EReal) (B : SBias.Idx → EReal)
    (X0 : SPadBlock.Idx → EReal) (X1 : SKerBlock.Idx → EReal) (X2 : SBias.Idx → EReal) (b : Fin 4) (t1 : Fin 8)
    (h0 : ∀ (y x : Fin 260) (c : Fin 32), X0 (ix4 (0 : Fin 1) y x c) = P (ix4 b y x c))
    (h1 : ∀ (r : Fin 32) (w : Fin 256) (n : Fin 25), X1 (ix4 (0 : Fin 1) r w n)
        = K (ix4 b ⟨32 * t1.val + r.val, by have := t1.isLt; have := r.isLt; omega⟩ w n))
    (h2 : X2 = B) (r : Fin 32) (w : Fin 256) (c : Fin 32) :
    tileEntry X0 X1 X2 t1 r w c
      = result P K B (ix4 b ⟨32 * t1.val + r.val, by have := t1.isLt; have := r.isLt; omega⟩ w c) := by
  subst h2
  rw [result_apply]
  unfold tileEntry taps
  exact congrArg (· + X2 (ix1 c)) (sum25_congr (fun di dj => h0 _ _ c) (fun n => h1 r w n))

end Cert.PixelConv

end
-- ==== Proof.TileValue.lean ====
/-
  What one grid point leaves in the result's staging buffer, read at one entry.

  The body loads 25 patches of the padded block and 25 weight columns, multiplies each patch by its column spread over
  the channels, adds the products one after the other to a running sum that starts from a splat of the f32 zero word,
  adds the spread bias and stores the tile once, through the whole buffer. So the buffer ends holding that one store's
  value, and at `(0, r, w, c)` this is the specification's tile entry: the 25 products in the specification's order —
  patch `(di, dj)` at `(0, di + (32·t₁ + r), dj + w, c)` times the weights block at `(0, r, w, 5·di + dj)` — then the
  bias at `c` (`tile_apply`), where `t₁` is the grid's second coordinate: the patches' row offset `32·t₁ + di` is
  computed by the body in 32-bit words and never wraps (the closed forms `off*_closed`).
-/
import proofs.«174641_j80814104641711_2_alg».proof.Proof.Gen.KernelIdeal.Frame
import proofs.«174641_j80814104641711_2_alg».proof.Proof.TileLayout
import proofs.«174641_j80814104641711_2_alg».proof.Proof.PixelConvSpec
import Idealize.ShloMosaic.Lib.Pipeline.Value
import Idealize.ShloMosaic.Lib.ValueIdx
import Idealize.ShloMosaic.Lib.Tactic

set_option maxRecDepth 16384

noncomputable section

namespace Cert.KernelIdeal.TileValue

open Cert.KernelIdeal Cert.KernelIdeal.Gen Idealize.ShloMosaic Idealize.ShloMosaic.TcCoe Idealize.ShloMosaic.ValueIdx Idealize.SL.Sem

/-- The five patch-row offsets in closed form: `32·t₁ + d` rows in, `j` columns in (the word arithmetic does not wrap
    for `d < 5` and `t₁ < 8`). -/
theorem off1_closed (i : grid0.Coords) (d : Nat) (hd : d < 5) : k0_off1 i (BitVec.ofNat 32 d) = ![0, 32 * (i 1).val + d, 0, 0] := k0_off1_eq i ⟨d, hd⟩
theorem off2_closed (i : grid0.Coords) (d : Nat) (hd : d < 5) : k0_off2 i (BitVec.ofNat 32 d) = ![0, 32 * (i 1).val + d, 1, 0] := k0_off2_eq i ⟨d, hd⟩
theorem off3_closed (i : grid0.Coords) (d : Nat) (hd : d < 5) : k0_off3 i (BitVec.ofNat 32 d) = ![0, 32 * (i 1).val + d, 2, 0] := k0_off3_eq i ⟨d, hd⟩
theorem off4_closed (i : grid0.Coords) (d : Nat) (hd : d < 5) : k0_off4 i (BitVec.ofNat 32 d) = ![0, 32 * (i 1).val + d, 3, 0] := k0_off4_eq i ⟨d, hd⟩
theorem off5_closed (i : grid0.Coords) (d : Nat) (hd : d < 5) : k0_off5 i (BitVec.ofNat 32 d) = ![0, 32 * (i 1).val + d, 4, 0] := k0_off5_eq i ⟨d, hd⟩

/-- The grid's second coordinate is below 8. -/
abbrev rowBlock (i : grid0.Coords) : Fin 8 := ⟨(i 1).val, (i 1).isLt⟩

section PatchReads
variable {Val : EltTy → Type} (a2 : Memref sig .tc .vmem S1x260x260x32 .f32) (h2 : a2.IsWhole)
  (x0 : S1x260x260x32.Idx → Val .f32) (i : grid0.Coords) (d : Nat) (hd : d < 5)

/-- The body's 25 patch loads, five per printed offset function (one per column shift `j`), row shift `d`: each reads
    `patchAt` at the grid's row block, `d` rows and `j` columns in. -/
theorem patchRead1 (inb : ∀ a, k0_off1 i (BitVec.ofNat 32 d) a + (![1, 32, 256, 32] : Fin 4 → Nat) a ≤ S1x260x260x32.size a) :
    View.readAt Val a2.view (Rect.unit (s := S1x260x260x32) (k0_off1 i (BitVec.ofNat 32 d)) ![1, 32, 256, 32] inb).toLoadRect (h2.unread x0)
      = patchAt x0 (rowBlock i) ⟨d, hd⟩ 0 :=
  patchRead_eq a2 h2 x0 _ (rowBlock i) ⟨d, hd⟩ 0 (off1_closed i d hd) inb
theorem patchRead2 (inb : ∀ a, k0_off2 i (BitVec.ofNat 32 d) a + (![1, 32, 256, 32] : Fin 4 → Nat) a ≤ S1x260x260x32.size a) :
    View.readAt Val a2.view (Rect.unit (s := S1x260x260x32) (k0_off2 i (BitVec.ofNat 32 d)) ![1, 32, 256, 32] inb).toLoadRect (h2.unread x0)
      = patchAt x0 (rowBlock i) ⟨d, hd⟩ 1 :=
  patchRead_eq a2 h2 x0 _ (rowBlock i) ⟨d, hd⟩ 1 (off2_closed i d hd) inb
theorem patchRead3 (inb : ∀ a, k0_off3 i (BitVec.ofNat 32 d) a + (![1, 32, 256, 32] : Fin 4 → Nat) a ≤ S1x260x260x32.size a) :
    View.readAt Val a2.view (Rect.unit (s := S1x260x260x32) (k0_off3 i (BitVec.ofNat 32 d)) ![1, 32, 256, 32] inb).toLoadRect (h2.unread x0)
      = patchAt x0 (rowBlock i) ⟨d, hd⟩ 2 :=
  patchRead_eq a2 h2 x0 _ (rowBlock i) ⟨d, hd⟩ 2 (off3_closed i d hd) inb
theorem patchRead4 (inb : ∀ a, k0_off4 i (BitVec.ofNat 32 d) a + (![1, 32, 256, 32] : Fin 4 → Nat) a ≤ S1x260x260x32.size a) :
    View.readAt Val a2.view (Rect.unit (s := S1x260x260x32) (k0_off4 i (BitVec.ofNat 32 d)) ![1, 32, 256, 32] inb).toLoadRect (h2.unread x0)
      = patchAt x0 (rowBlock i) ⟨d, hd⟩ 3 :=
  patchRead_eq a2 h2 x0 _ (rowBlock i) ⟨d, hd⟩ 3 (off4_closed i d hd) inb
theorem patchRead5 (inb : ∀ a, k0_off5 i (BitVec.ofNat 32 d) a + (![1, 32, 256, 32] : Fin 4 → Nat) a ≤ S1x260x260x32.size a) :
    View.readAt Val a2.view (Rect.unit (s := S1x260x260x32) (k0_off5 i (BitVec.ofNat 32 d)) ![1, 32, 256, 32] inb).toLoadRect (h2.unread x0)
      = patchAt x0 (rowBlock i) ⟨d, hd⟩ 4 :=
  patchRead_eq a2 h2 x0 _ (rowBlock i) ⟨d, hd⟩ 4 (off5_closed i d hd) inb

end PatchReads

/-- ONE POINT'S TILE at `(0, r, w, c)`: the specification's tile entry over the point's three input blocks. -/
theorem tile_apply (c : Dev nD) (i : grid0.Coords) (a2 : Memref sig .tc .vmem S1x260x260x32 .f32) (h2 : a2.IsWhole)
    (a3 : Memref sig .tc .vmem S1x32x256x25 .f32) (h3 : a3.IsWhole) (a4 : Memref sig .tc .vmem S32 .f32) (h4 : a4.IsWhole)
    (a5 : Memref sig .tc .vmem S1x32x256x32 .f32) (h5 : a5.IsWhole)
    (x0 : Vec Ideal S1x260x260x32 .f32) (x1 : Vec Ideal S1x32x256x25 .f32) (x2 : Vec Ideal S32 .f32)
    (r : Fin 32) (w : Fin 256) (ch : Fin 32) :
    out0_A_3 (F := Ideal) c i a2 h2 a3 h3 a4 h4 a5 h5 x0 x1 x2 (ix4 (0 : Fin 1) r w ch)
      = PixelConv.tileEntry x0 x1 x2 (rowBlock i) r w ch := by
  unfold out0_A_3
  rw [View.read_writes_eq_canon _ _ _ (cover0_A_3 c i a2 h2 a3 h3 a4 h4 a5 h5 x0 x1 x2)]
  unfold kernelRun0_A
  dsimp only
  sl_unfold_run_names
  -- the 51 loads, as functions of the tile's entry
  simp (disch := decide) only [patchRead1, patchRead2, patchRead3, patchRead4, patchRead5, weightRead_eq, biasRead_eq]
  -- the one store covers the buffer: what is left is its value
  rw [View.canon_unit_zero (S := S1x32x256x32) zeros4]
  -- the value at the entry: every operation reads one entry of its operands
  simp only [k0_pay1, k0_pay2, k0_pay3, k0_pay4, k0_pay5, k0_pay6, k0_pay7, k0_pay8, k0_pay9, k0_pay10, k0_pay11, k0_pay12,
    addf_apply, mulf_apply, broadcast_apply, stored_apply, patch_apply, spread_apply, biasSpread_apply,
    patchAt_apply, weightAt_apply]
  unfold PixelConv.tileEntry PixelConv.sum25
  rfl

/-- The same at any entry `y` of the tile's buffer, by its coordinates (the leading one is 0). -/
theorem tile_apply' (c : Dev nD) (i : grid0.Coords) (a2 : Memref sig .tc .vmem S1x260x260x32 .f32) (h2 : a2.IsWhole)
    (a3 : Memref sig .tc .vmem S1x32x256x25 .f32) (h3 : a3.IsWhole) (a4 : Memref sig .tc .vmem S32 .f32) (h4 : a4.IsWhole)
    (a5 : Memref sig .tc .vmem S1x32x256x32 .f32) (h5 : a5.IsWhole)
    (x0 : Vec Ideal S1x260x260x32 .f32) (x1 : Vec Ideal S1x32x256x25 .f32) (x2 : Vec Ideal S32 .f32)
    (y : S1x32x256x32.Idx) :
    out0_A_3 (F := Ideal) c i a2 h2 a3 h3 a4 h4 a5 h5 x0 x1 x2 y
      = PixelConv.tileEntry x0 x1 x2 (rowBlock i) ⟨(y 1).val, (y 1).isLt⟩ ⟨(y 2).val, (y 2).isLt⟩ ⟨(y 3).val, (y 3).isLt⟩ := by
  obtain ⟨z, r, w, ch, rfl⟩ : ∃ (z : Fin 1) (r : Fin 32) (w : Fin 256) (ch : Fin 32), y = ix4 z r w ch :=
    ⟨y 0, y 1, y 2, y 3, eq_ix4 y⟩
  obtain rfl : z = 0 := Subsingleton.elim _ _
  exact tile_apply c i a2 h2 a3 h3 a4 h4 a5 h5 x0 x1 x2 r w ch

end Cert.KernelIdeal.TileValue

end
-- ==== Proof.ArrayValue.lean ====
/-
  The kernel's result array after the run is the per-pixel predicted convolution of the padded feature map.

  The grid has 4 × 8 points; point `(b, t₁)` holds the batch-`b` slab of the padded map, rows `32·t₁ … 32·t₁ + 31` of the
  weights and the bias, and writes back rows `32·t₁ … 32·t₁ + 31` of batch element `b` of the result. Here:

    * what the region finds in the padded buffer is the host's pad of the feature map (`padded_eq`);
    * each input block read at an entry is its array read at the block's place in it — the slab ignores nothing but the
      batch coordinate, the weights' rows move with the result's (`slab_apply`, `weights_apply`, `bias_eq`), by the
      relations between the four index maps, decided once over the 32 points (`idx_facts`);
    * so what point `t` writes back is block `t` of ONE function of the launch memory, `resultArray` (`flushed_eq`);
    * the 32 blocks cover the result array (`cover`), hence the array after the run IS `resultArray` (`final`, `run`).
-/
import proofs.«174641_j80814104641711_2_alg».proof.Proof.Gen.KernelIdeal.Value
import proofs.«174641_j80814104641711_2_alg».proof.Proof.TileValue
import proofs.«174641_j80814104641711_2_alg».proof.Proof.PixelConvSpec
import Idealize.ShloMosaic.Lib.Pipeline.Value
import Idealize.ShloMosaic.Lib.StableHlo.Run
import Idealize.ShloMosaic.Lib.ValueIdx

noncomputable section

namespace Cert.KernelIdeal.ArrayValue

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The result array as ONE function of the launch memory: the specification's result of the padded feature map, the
    weights and the bias. -/
def resultArray (c : Dev nD) : S4x256x256x32.Idx → EReal :=
  PixelConv.result (PixelConv.paddedMap (m ((c : Thread nD τ).loc main_arg0)))
    (m ((c : Thread nD τ).loc main_arg1)) (m ((c : Thread nD τ).loc main_arg2))

/-- What the region finds in the padded buffer: the host's pad of the feature map as launched. -/
theorem padded_eq (c : Dev nD) :
    (V m c main_v0 : S4x260x260x32.Idx → EReal) = PixelConv.paddedMap (m ((c : Thread nD τ).loc main_arg0)) := by
  dsimp only [V]
  simp only [hostOps0, hostOps0_1, List.flatten_cons, List.flatten_nil, List.append_nil, List.cons_append, List.nil_append]
  after_results
  rfl

/-- The four index maps over the grid: the slab follows the result's batch index and sits at the origin of the other
    axes; the weights' block follows the result's on batch and rows; the bias is one block; the result's blocks start
    at column 0 and channel 0, batch below 4 and row block below 8; and the row block is the grid's second coordinate. -/
theorem idx_facts : ∀ t : Fin cfg0.N,
    win0_0.index t (0 : Fin 4) = win0_3.index t (0 : Fin 4) ∧ win0_0.index t (1 : Fin 4) = 0
    ∧ win0_0.index t (2 : Fin 4) = 0 ∧ win0_0.index t (3 : Fin 4) = 0
    ∧ win0_1.index t (0 : Fin 4) = win0_3.index t (0 : Fin 4) ∧ win0_1.index t (1 : Fin 4) = win0_3.index t (1 : Fin 4)
    ∧ win0_1.index t (2 : Fin 4) = 0 ∧ win0_1.index t (3 : Fin 4) = 0
    ∧ win0_2.index t (0 : Fin 1) = 0
    ∧ win0_3.index t (2 : Fin 4) = 0 ∧ win0_3.index t (3 : Fin 4) = 0
    ∧ win0_3.index t (0 : Fin 4) ≤ 3 ∧ win0_3.index t (1 : Fin 4) ≤ 7
    ∧ (grid0.coords t (1 : Fin 2)).val = win0_3.index t (1 : Fin 4) :=
  (by decide +kernel : ∀ t : Fin grid0.N, _)

/-- Every (batch, row block) pair is some point's. -/
theorem idx_onto : ∀ (q0 : Fin 4) (q1 : Fin 8), ∃ t : Fin cfg0.N, win0_3.index t = ![q0.val, q1.val, 0, 0] :=
  (by decide +kernel : ∀ (q0 : Fin 4) (q1 : Fin 8), ∃ t : Fin grid0.N, win0_3.index t = ![q0.val, q1.val, 0, 0])

/-- The slab at a point, read at `(0, y, x, c)`: the padded map at `(b, y, x, c)`, `b` the point's batch index. -/
theorem slab_apply (c : Dev nD) (t : Fin cfg0.N) (hb : win0_3.index t (0 : Fin 4) < 4) (y x : Fin 260) (ch : Fin 32) :
    iblk m c 0 t (ix4 (0 : Fin 1) y x ch)
      = PixelConv.paddedMap (m ((c : Thread nD τ).loc main_arg0)) (ix4 ⟨win0_3.index t (0 : Fin 4), hb⟩ y x ch) := by
  obtain ⟨e00, e01, e02, e03, -⟩ := idx_facts t
  show V m c main_v0 (((cfg0.win 0).blk t).view.emb (ix4 (0 : Fin 1) y x ch)) = _
  rw [padded_eq]
  refine congrArg _ (funext fun a => Fin.ext ?_)
  match a with
  | ⟨0, _⟩ => show win0_0.index t (0 : Fin 4) * 1 + 1 * 0 = win0_3.index t (0 : Fin 4); omega
  | ⟨1, _⟩ => show win0_0.index t (1 : Fin 4) * 260 + 1 * y.val = y.val; omega
  | ⟨2, _⟩ => show win0_0.index t (2 : Fin 4) * 260 + 1 * x.val = x.val; omega
  | ⟨3, _⟩ => show win0_0.index t (3 : Fin 4) * 32 + 1 * ch.val = ch.val; omega

/-- The weights' block at a point, read at `(0, r, w, n)`: the weights at `(b, 32·t₁ + r, w, n)`. -/
theorem weights_apply (c : Dev nD) (t : Fin cfg0.N) (hb : win0_3.index t (0 : Fin 4) < 4) (r : Fin 32) (w : Fin 256) (n : Fin 25) :
    iblk m c 1 t (ix4 (0 : Fin 1) r w n)
      = m ((c : Thread nD τ).loc main_arg1) (ix4 ⟨win0_3.index t (0 : Fin 4), hb⟩
          ⟨32 * (TileValue.rowBlock (grid0.coords t)).val + r.val, by have := (TileValue.rowBlock (grid0.coords t)).isLt; have := r.isLt; omega⟩ w n) := by
  obtain ⟨-, -, -, -, e10, e11, e12, e13, -, -, -, -, -, hc1⟩ := idx_facts t
  show V m c main_arg1 (((cfg0.win 1).blk t).view.emb (ix4 (0 : Fin 1) r w n)) = _
  rw [V_main_arg1]
  refine congrArg _ (funext fun a => Fin.ext ?_)
  match a with
  | ⟨0, _⟩ => show win0_1.index t (0 : Fin 4) * 1 + 1 * 0 = win0_3.index t (0 : Fin 4); omega
  | ⟨1, _⟩ => show win0_1.index t (1 : Fin 4) * 32 + 1 * r.val = 32 * (grid0.coords t (1 : Fin 2)).val + r.val; omega
  | ⟨2, _⟩ => show win0_1.index t (2 : Fin 4) * 256 + 1 * w.val = w.val; omega
  | ⟨3, _⟩ => show win0_1.index t (3 : Fin 4) * 25 + 1 * n.val = n.val; omega

/-- The bias block at a point is the bias. -/
theorem bias_eq (c : Dev nD) (t : Fin cfg0.N) :
    (iblk m c 2 t : S32.Idx → EReal) = m ((c : Thread nD τ).loc main_arg2) := by
  obtain ⟨-, -, -, -, -, -, -, -, e20, -⟩ := idx_facts t
  funext z
  show V m c main_arg2 (((cfg0.win 2).blk t).view.emb z) = _
  rw [V_main_arg2]
  refine congrArg _ (funext fun a => Fin.ext ?_)
  match a with
  | ⟨0, _⟩ => show win0_2.index t (0 : Fin 1) * 32 + 1 * (z 0).val = (z 0).val; omega

/-- WHAT POINT `t` WRITES BACK is block `t` of `resultArray`. -/
theorem flushed_eq (c : Dev nD) (t : Fin cfg0.N) :
    (dats m 0 c).flushed 3 t = ((cfg0.win 3).blk t).view.read (Elt Ideal) (resultArray m c) := by
  rw [Value.flushed3_A]
  obtain ⟨-, -, -, -, -, -, -, -, -, e32, e33, hb3, ht7, hc1⟩ := idx_facts t
  have hb : win0_3.index t (0 : Fin 4) < 4 := by omega
  funext j
  have hj0 : (j 0).val < 1 := (j 0).isLt
  show out0_A_3 c (grid0.coords t) (ms0_0 t) (hs0_0 t) (ms0_1 t) (hs0_1 t) (ms0_2 t) (hs0_2 t) (ms0_3 t) (hs0_3 t)
      (iblk m c 0 t) (iblk m c 1 t) (iblk m c 2 t) j = resultArray m c (((cfg0.win 3).blk t).view.emb j)
  refine (TileValue.tile_apply' c (grid0.coords t) (ms0_0 t) (hs0_0 t) (ms0_1 t) (hs0_1 t) (ms0_2 t) (hs0_2 t) (ms0_3 t) (hs0_3 t)
      (iblk m c 0 t) (iblk m c 1 t) (iblk m c 2 t) j).trans ?_
  refine (PixelConv.tileEntry_eq_result (PixelConv.paddedMap (m ((c : Thread nD τ).loc main_arg0)))
      (m ((c : Thread nD τ).loc main_arg1)) (m ((c : Thread nD τ).loc main_arg2))
      (iblk m c 0 t) (iblk m c 1 t) (iblk m c 2 t) ⟨win0_3.index t (0 : Fin 4), hb⟩ (TileValue.rowBlock (grid0.coords t))
      (fun y x ch => slab_apply m c t hb y x ch) (fun r w n => weights_apply m c t hb r w n) (bias_eq m c t) _ _ _).trans ?_
  unfold resultArray
  refine congrArg _ (funext fun a => Fin.ext ?_)
  match a with
  | ⟨0, _⟩ => show win0_3.index t (0 : Fin 4) = win0_3.index t (0 : Fin 4) * 1 + 1 * (j 0).val; omega
  | ⟨1, _⟩ => show 32 * (grid0.coords t (1 : Fin 2)).val + (j 1).val = win0_3.index t (1 : Fin 4) * 32 + 1 * (j 1).val; omega
  | ⟨2, _⟩ => show (j 2).val = win0_3.index t (2 : Fin 4) * 256 + 1 * (j 2).val; omega
  | ⟨3, _⟩ => show (j 3).val = win0_3.index t (3 : Fin 4) * 32 + 1 * (j 3).val; omega

/-- An index of the result array is in point `t`'s block iff each coordinate is in the block's range on its axis. -/
theorem mem_blk (t : Fin cfg0.N) (i : S4x256x256x32.Idx) :
    i ∈ ((cfg0.win 3).blk t).view.set ↔ ∀ a : Fin 4, win0_3.index t a * S1x32x256x32.size a ≤ (i a).val
      ∧ (i a).val < win0_3.index t a * S1x32x256x32.size a + S1x32x256x32.size a := by
  show i ∈ ((View.whole main_v1).slice (win0_3.rect t)).set ↔ _
  rw [View.set_slice_whole, Rect.mem_set_unit]
  exact Iff.rfl

/-- THE 32 BLOCKS COVER THE RESULT: index `(b, h, w, c)` is in the block of the point with batch `b` and row block `h / 32`. -/
theorem cover (i : S4x256x256x32.Idx) :
    ∃ t : Fin cfg0.N, (cfg0.win 3).flush t = true ∧ i ∈ ((cfg0.win 3).blk t).view.set := by
  have hi0 : (i 0).val < 4 := (i 0).isLt
  have hi1 : (i 1).val < 256 := (i 1).isLt
  have hi2 : (i 2).val < 256 := (i 2).isLt
  have hi3 : (i 3).val < 32 := (i 3).isLt
  obtain ⟨t, ht⟩ := idx_onto ⟨(i 0).val, hi0⟩ ⟨(i 1).val / 32, by omega⟩
  have q0 : win0_3.index t (0 : Fin 4) = (i 0).val := congrFun ht 0
  have q1 : win0_3.index t (1 : Fin 4) = (i 1).val / 32 := congrFun ht 1
  have q2 : win0_3.index t (2 : Fin 4) = 0 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 32 ≤ (i 1).val ∧ (i 1).val < win0_3.index t (1 : Fin 4) * 32 + 32; omega
  | ⟨2, _⟩ => show win0_3.index t (2 : Fin 4) * 256 ≤ (i 2).val ∧ (i 2).val < win0_3.index t (2 : Fin 4) * 256 + 256; omega
  | ⟨3, _⟩ => show win0_3.index t (3 : Fin 4) * 32 ≤ (i 3).val ∧ (i 3).val < win0_3.index t (3 : Fin 4) * 32 + 32; omega

/-- THE RESULT ARRAY after the run. -/
theorem final (c : Dev nD) : (dats m 0 c).arrAt 3 cfg0.N = resultArray m c :=
  (dats m 0 c).arrAt_eq_of_cover 3 (resultArray m c) (fun t _ => flushed_eq m c t) cover

/-- The kernel's run: every weakly fair execution terminates with the result array at `resultArray` and the argument
    arrays as launched. -/
theorem run : θ_run defs (onTc (τ := τ) (main (F := Ideal))) ⟨m, fun _ => 0, ρ⟩ fun r => ∀ c : Dev nD,
      r.2.mem ((c : Thread nD τ).loc main_v1) = resultArray m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.ArrayValue

end
-- ==== Proof.RefWindow0.lean ====
import proofs.«174641_j80814104641711_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 61 of the reference's @main, in order: the printed window `main_part0`. -/
def ops0 : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S4x256x256x32, .f32⟩) main_arg0) (TRef.of (T := ⟨S_, .f32⟩) main_call0_v0) (TRef.of (T := ⟨S4x260x260x32, .f32⟩) main_v0) (fun x v => pad S4x260x260x32 ![0, 2, 2, 0] ![0, 2, 2, 0] ![0, 0, 0, 0] x v pads_S4x256x256x32_S4x260x260x32_000_220_220_000 h_S_),
    nullary main_cst (constant S_ .f32 0x00000000#32),
    unary main_cst main_v1 (broadcastInDim S4x256x256x32 ![] bcast_S_S4x256x256x32 : (⟨S_, .f32⟩ : BufTy).Contents (Elt F) → (⟨S4x256x256x32, .f32⟩ : BufTy).Contents (Elt F)),
    unary main_arg1 main_v2 ((extractStridedSlice S4x256x256x1 ![0, 0, 0, 0] · slices_S4x256x256x25_S4x256x256x1_0_0_0_0) : (⟨S4x256x256x25, .f32⟩ : BufTy).Contents (Elt F) → (⟨S4x256x256x1, .f32⟩ : BufTy).Contents (Elt F)),
    reshape main_v2 main_v3 rfl shapeCasts_S4x256x256x1_S4x256x256,
    unary main_v3 main_v4 (broadcastInDim S4x256x256x1 ![0, 1, 2] bcast_S4x256x256_S4x256x256x1_0_1_2 : (⟨S4x256x256, .f32⟩ : BufTy).Contents (Elt F) → (⟨S4x256x256x1, .f32⟩ : BufTy).Contents (Elt F)),
    unary main_v0 main_v5 ((extractStridedSlice S4x256x256x32 ![0, 0, 0, 0] · slices_S4x260x260x32_S4x256x256x32_0_0_0_0) : (⟨S4x260x260x32, .f32⟩ : BufTy).Contents (Elt F) → (⟨S4x256x256x32, .f32⟩ : BufTy).Contents (Elt F)),
    unary main_v4 main_v6 (broadcastInDim S4x256x256x32 ![0, 1, 2, 3] bcast_S4x256x256x1_S4x256x256x32_0_1_2_3 : (⟨S4x256x256x1, .f32⟩ : BufTy).Contents (Elt F) → (⟨S4x256x256x32, .f32⟩ : BufTy).Contents (Elt F)),
    binary main_v5 main_v6 main_v7 (mulf : (⟨S4x256x256x32, .f32⟩ : BufTy).Contents (Elt F) → (⟨S4x256x256x32, .f32⟩ : BufTy).Contents (Elt F) → (⟨S4x256x256x32, .f32⟩ : BufTy).Contents (Elt F)),
    binary main_v1 main_v7 main_v8 (addf : (⟨S4x256x256x32, .f32⟩ : BufTy).Contents (Elt F) → (⟨S4x256x256x32, .f32⟩ : BufTy).Contents (Elt F) → (⟨S4x256x256x32, .f32⟩ : BufTy).Contents (Elt F)),
    unary main_arg1 main_v9 ((extractStridedSlice S4x256x256x1 ![0, 0, 0, 1] · slices_S4x256x256x25_S4x256x256x1_0_0_0_1) : (⟨S4x256x256x25, .f32⟩ : BufTy).Contents (Elt F) → (⟨S4x256x256x1, .f32⟩ : BufTy).Contents (Elt F)),
    reshape main_v9 main_v10 rfl shapeCasts_S4x256x256x1_S4x256x256,
    unary main_v10 main_v11 (broadcastInDim S4x256x256x1 ![0, 1, 2] bcast_S4x256x256_S4x256x256x1_0_1_2 : (⟨S4x256x256, .f32⟩ : BufTy).Contents (Elt F) → (⟨S4x256x256x1, .f32⟩ : BufTy).Contents (Elt F)),
    unary main_v0 main_v12 ((extractStridedSlice S4x256x256x32 ![0, 0, 1, 0] · slices_S4x260x260x32_S4x256x256x32_0_0_1_0) : (⟨S4x260x260x32, .f32⟩ : BufTy).Contents (Elt F) → (⟨S4x256x256x32, .f32⟩ : BufTy).Contents (Elt F)),
    unary main_v11 main_v13 (broadcastInDim S4x256x256x32 ![0, 1, 2, 3] bcast_S4x256x256x1_S4x256x256x32_0_1_2_3 : (⟨S4x256x256x1, .f32⟩ : BufTy).Contents (Elt F) → (⟨S4x256x256x32, .f32⟩ : BufTy).Contents (Elt F)),
    binary main_v12 main_v13 main_v14 (mulf : (⟨S4x256x256x32, .f32⟩ : BufTy).Contents (Elt F) → (⟨S4x256x256x32, .f32⟩ : BufTy).Contents (Elt F) → (⟨S4x256x256x32, .f32⟩ : BufTy).Contents (Elt F)),
    binary main_v8 main_v14 main_v15 (addf : (⟨S4x256x256x32, .f32⟩ : BufTy).Contents (Elt F) → (⟨S4x256x256x32, .f32⟩ : BufTy).Contents (Elt F) → (⟨S4x256x256x32, .f32⟩ : BufTy).Contents (Elt F)),
    unary main_arg1 main_v16 ((extractStridedSlice S4x256x256x1 ![0, 0, 0, 2] · slices_S4x256x256x25_S4x256x256x1_0_0_0_2) : (⟨S4x256x256x25, .f32⟩ : BufTy).Contents (Elt F) → (⟨S4x256x256x1, .f32⟩ : BufTy).Contents (Elt F)),
    reshape main_v16 main_v17 rfl shapeCasts_S4x256x256x1_S4x256x256,
    unary main_v17 main_v18 (broadcastInDim S4x256x256x1 ![0, 1, 2] bcast_S4x256x256_S4x256x256x1_0_1_2 : (⟨S4x256x256, .f32⟩ : BufTy).Contents (Elt F) → (⟨S4x256x256x1, .f32⟩ : BufTy).Contents (Elt F)),
    unary main_v0 main_v19 ((extractStridedSlice S4x256x256x32 ![0, 0, 2, 0] · slices_S4x260x260x32_S4x256x256x32_0_0_2_0) : (⟨S4x260x260x32, .f32⟩ : BufTy).Contents (Elt F) → (⟨S4x256x256x32, .f32⟩ : BufTy).Contents (Elt F)),
    unary main_v18 main_v20 (broadcastInDim S4x256x256x32 ![0, 1, 2, 3] bcast_S4x256x256x1_S4x256x256x32_0_1_2_3 : (⟨S4x256x256x1, .f32⟩ : BufTy).Contents (Elt F) → (⟨S4x256x256x32, .f32⟩ : BufTy).Contents (Elt F)),
    binary main_v19 main_v20 main_v21 (mulf : (⟨S4x256x256x32, .f32⟩ : BufTy).Contents (Elt F) → (⟨S4x256x256x32, .f32⟩ : BufTy).Contents (Elt F) → (⟨S4x256x256x32, .f32⟩ : BufTy).Contents (Elt F)),
    binary main_v15 main_v21 main_v22 (addf : (⟨S4x256x256x32, .f32⟩ : BufTy).Contents (Elt F) → (⟨S4x256x256x32, .f32⟩ : BufTy).Contents (Elt F) → (⟨S4x256x256x32, .f32⟩ : BufTy).Contents (Elt F)),
    unary main_arg1 main_v23 ((extractStridedSlice S4x256x256x1 ![0, 0, 0, 3] · slices_S4x256x256x25_S4x256x256x1_0_0_0_3) : (⟨S4x256x256x25, .f32⟩ : BufTy).Contents (Elt F) → (⟨S4x256x256x1, .f32⟩ : BufTy).Contents (Elt F)),
    reshape main_v23 main_v24 rfl shapeCasts_S4x256x256x1_S4x256x256,
    unary main_v24 main_v25 (broadcastInDim S4x256x256x1 ![0, 1, 2] bcast_S4x256x256_S4x256x256x1_0_1_2 : (⟨S4x256x256, .f32⟩ : BufTy).Contents (Elt F) → (⟨S4x256x256x1, .f32⟩ : BufTy).Contents (Elt F)),
    unary main_v0 main_v26 ((extractStridedSlice S4x256x256x32 ![0, 0, 3, 0] · slices_S4x260x260x32_S4x256x256x32_0_0_3_0) : (⟨S4x260x260x32, .f32⟩ : BufTy).Contents (Elt F) → (⟨S4x256x256x32, .f32⟩ : BufTy).Contents (Elt F)),
    unary main_v25 main_v27 (broadcastInDim S4x256x256x32 ![0, 1, 2, 3] bcast_S4x256x256x1_S4x256x256x32_0_1_2_3 : (⟨S4x256x256x1, .f32⟩ : BufTy).Contents (Elt F) → (⟨S4x256x256x32, .f32⟩ : BufTy).Contents (Elt F)),
    binary main_v26 main_v27 main_v28 (mulf : (⟨S4x256x256x32, .f32⟩ : BufTy).Contents (Elt F) → (⟨S4x256x256x32, .f32⟩ : BufTy).Contents (Elt F) → (⟨S4x256x256x32, .f32⟩ : BufTy).Contents (Elt F)),
    binary main_v22 main_v28 main_v29 (addf : (⟨S4x256x256x32, .f32⟩ : BufTy).Contents (Elt F) → (⟨S4x256x256x32, .f32⟩ : BufTy).Contents (Elt F) → (⟨S4x256x256x32, .f32⟩ : BufTy).Contents (Elt F)),
    unary main_arg1 main_v30 ((extractStridedSlice S4x256x256x1 ![0, 0, 0, 4] · slices_S4x256x256x25_S4x256x256x1_0_0_0_4) : (⟨S4x256x256x25, .f32⟩ : BufTy).Contents (Elt F) → (⟨S4x256x256x1, .f32⟩ : BufTy).Contents (Elt F)),
    reshape main_v30 main_v31 rfl shapeCasts_S4x256x256x1_S4x256x256,
    unary main_v31 main_v32 (broadcastInDim S4x256x256x1 ![0, 1, 2] bcast_S4x256x256_S4x256x256x1_0_1_2 : (⟨S4x256x256, .f32⟩ : BufTy).Contents (Elt F) → (⟨S4x256x256x1, .f32⟩ : BufTy).Contents (Elt F)),
    unary main_v0 main_v33 ((extractStridedSlice S4x256x256x32 ![0, 0, 4, 0] · slices_S4x260x260x32_S4x256x256x32_0_0_4_0) : (⟨S4x260x260x32, .f32⟩ : BufTy).Contents (Elt F) → (⟨S4x256x256x32, .f32⟩ : BufTy).Contents (Elt F)),
    unary main_v32 main_v34 (broadcastInDim S4x256x256x32 ![0, 1, 2, 3] bcast_S4x256x256x1_S4x256x256x32_0_1_2_3 : (⟨S4x256x256x1, .f32⟩ : BufTy).Contents (Elt F) → (⟨S4x256x256x32, .f32⟩ : BufTy).Contents (Elt F)),
    binary main_v33 main_v34 main_v35 (mulf : (⟨S4x256x256x32, .f32⟩ : BufTy).Contents (Elt F) → (⟨S4x256x256x32, .f32⟩ : BufTy).Contents (Elt F) → (⟨S4x256x256x32, .f32⟩ : BufTy).Contents (Elt F)),
    binary main_v29 main_v35 main_v36 (addf : (⟨S4x256x256x32, .f32⟩ : BufTy).Contents (Elt F) → (⟨S4x256x256x32, .f32⟩ : BufTy).Contents (Elt F) → (⟨S4x256x256x32, .f32⟩ : BufTy).Contents (Elt F)),
    unary main_arg1 main_v37 ((extractStridedSlice S4x256x256x1 ![0, 0, 0, 5] · slices_S4x256x256x25_S4x256x256x1_0_0_0_5) : (⟨S4x256x256x25, .f32⟩ : BufTy).Contents (Elt F) → (⟨S4x256x256x1, .f32⟩ : BufTy).Contents (Elt F)),
    reshape main_v37 main_v38 rfl shapeCasts_S4x256x256x1_S4x256x256,
    unary main_v38 main_v39 (broadcastInDim S4x256x256x1 ![0, 1, 2] bcast_S4x256x256_S4x256x256x1_0_1_2 : (⟨S4x256x256, .f32⟩ : BufTy).Contents (Elt F) → (⟨S4x256x256x1, .f32⟩ : BufTy).Contents (Elt F)),
    unary main_v0 main_v40 ((extractStridedSlice S4x256x256x32 ![0, 1, 0, 0] · slices_S4x260x260x32_S4x256x256x32_0_1_0_0) : (⟨S4x260x260x32, .f32⟩ : BufTy).Contents (Elt F) → (⟨S4x256x256x32, .f32⟩ : BufTy).Contents (Elt F)),
    unary main_v39 main_v41 (broadcastInDim S4x256x256x32 ![0, 1, 2, 3] bcast_S4x256x256x1_S4x256x256x32_0_1_2_3 : (⟨S4x256x256x1, .f32⟩ : BufTy).Contents (Elt F) → (⟨S4x256x256x32, .f32⟩ : BufTy).Contents (Elt F)),
    binary main_v40 main_v41 main_v42 (mulf : (⟨S4x256x256x32, .f32⟩ : BufTy).Contents (Elt F) → (⟨S4x256x256x32, .f32⟩ : BufTy).Contents (Elt F) → (⟨S4x256x256x32, .f32⟩ : BufTy).Contents (Elt F)),
    binary main_v36 main_v42 main_v43 (addf : (⟨S4x256x256x32, .f32⟩ : BufTy).Contents (Elt F) → (⟨S4x256x256x32, .f32⟩ : BufTy).Contents (Elt F) → (⟨S4x256x256x32, .f32⟩ : BufTy).Contents (Elt F)),
    unary main_arg1 main_v44 ((extractStridedSlice S4x256x256x1 ![0, 0, 0, 6] · slices_S4x256x256x25_S4x256x256x1_0_0_0_6) : (⟨S4x256x256x25, .f32⟩ : BufTy).Contents (Elt F) → (⟨S4x256x256x1, .f32⟩ : BufTy).Contents (Elt F)),
    reshape main_v44 main_v45 rfl shapeCasts_S4x256x256x1_S4x256x256,
    unary main_v45 main_v46 (broadcastInDim S4x256x256x1 ![0, 1, 2] bcast_S4x256x256_S4x256x256x1_0_1_2 : (⟨S4x256x256, .f32⟩ : BufTy).Contents (Elt F) → (⟨S4x256x256x1, .f32⟩ : BufTy).Contents (Elt F)),
    unary main_v0 main_v47 ((extractStridedSlice S4x256x256x32 ![0, 1, 1, 0] · slices_S4x260x260x32_S4x256x256x32_0_1_1_0) : (⟨S4x260x260x32, .f32⟩ : BufTy).Contents (Elt F) → (⟨S4x256x256x32, .f32⟩ : BufTy).Contents (Elt F)),
    unary main_v46 main_v48 (broadcastInDim S4x256x256x32 ![0, 1, 2, 3] bcast_S4x256x256x1_S4x256x256x32_0_1_2_3 : (⟨S4x256x256x1, .f32⟩ : BufTy).Contents (Elt F) → (⟨S4x256x256x32, .f32⟩ : BufTy).Contents (Elt F)),
    binary main_v47 main_v48 main_v49 (mulf : (⟨S4x256x256x32, .f32⟩ : BufTy).Contents (Elt F) → (⟨S4x256x256x32, .f32⟩ : BufTy).Contents (Elt F) → (⟨S4x256x256x32, .f32⟩ : BufTy).Contents (Elt F)),
    binary main_v43 main_v49 main_v50 (addf : (⟨S4x256x256x32, .f32⟩ : BufTy).Contents (Elt F) → (⟨S4x256x256x32, .f32⟩ : BufTy).Contents (Elt F) → (⟨S4x256x256x32, .f32⟩ : BufTy).Contents (Elt F)),
    unary main_arg1 main_v51 ((extractStridedSlice S4x256x256x1 ![0, 0, 0, 7] · slices_S4x256x256x25_S4x256x256x1_0_0_0_7) : (⟨S4x256x256x25, .f32⟩ : BufTy).Contents (Elt F) → (⟨S4x256x256x1, .f32⟩ : BufTy).Contents (Elt F)),
    reshape main_v51 main_v52 rfl shapeCasts_S4x256x256x1_S4x256x256,
    unary main_v52 main_v53 (broadcastInDim S4x256x256x1 ![0, 1, 2] bcast_S4x256x256_S4x256x256x1_0_1_2 : (⟨S4x256x256, .f32⟩ : BufTy).Contents (Elt F) → (⟨S4x256x256x1, .f32⟩ : BufTy).Contents (Elt F)),
    unary main_v0 main_v54 ((extractStridedSlice S4x256x256x32 ![0, 1, 2, 0] · slices_S4x260x260x32_S4x256x256x32_0_1_2_0) : (⟨S4x260x260x32, .f32⟩ : BufTy).Contents (Elt F) → (⟨S4x256x256x32, .f32⟩ : BufTy).Contents (Elt F)),
    unary main_v53 main_v55 (broadcastInDim S4x256x256x32 ![0, 1, 2, 3] bcast_S4x256x256x1_S4x256x256x32_0_1_2_3 : (⟨S4x256x256x1, .f32⟩ : BufTy).Contents (Elt F) → (⟨S4x256x256x32, .f32⟩ : BufTy).Contents (Elt F)),
    binary main_v54 main_v55 main_v56 (mulf : (⟨S4x256x256x32, .f32⟩ : BufTy).Contents (Elt F) → (⟨S4x256x256x32, .f32⟩ : BufTy).Contents (Elt F) → (⟨S4x256x256x32, .f32⟩ : BufTy).Contents (Elt F)),
    binary main_v50 main_v56 main_v57 (addf : (⟨S4x256x256x32, .f32⟩ : BufTy).Contents (Elt F) → (⟨S4x256x256x32, .f32⟩ : BufTy).Contents (Elt F) → (⟨S4x256x256x32, .f32⟩ : BufTy).Contents (Elt F)) ]

set_option maxRecDepth 8192 in
set_option maxHeartbeats 4000000 in
/-- The printed window is the line of its operations. -/
theorem part0_eq (c : Dev nD) : main_part0 (F := F) c = seq ops0 := rfl

set_option maxRecDepth 8192 in
/-- Each operation touches TensorCore references only. -/
theorem ops0_sub : (ops0 : List (HloOp τ sig (Elt F))).Forall fun op => op.bufs ⊆ tcRefs τ sig :=
  ⟨nullary_bufs_sub .., unary_bufs_sub .., binary_bufs_sub .., nullary_bufs_sub .., unary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub ..⟩

set_option maxRecDepth 8192 in
/-- Each operation determines its results (none allocates a buffer). -/
theorem ops0_fresh : (ops0 : List (HloOp τ sig (Elt F))).Forall fun op => op.fresh = ∅ := by
  unfold ops0; simp only [List.Forall]; repeat' constructor

end Cert.ReferenceIdeal.RefRun

end
-- ==== Proof.RefTerms.lean ====
/-
  The reference program's values, window by window, and their reading at an index.

  The reference pads the feature map, starts a running sum from a spread zero and, for each of the 25 taps, adds the
  product of a 256 × 256 window of the padded map (the one that starts `di` rows and `dj` columns in) with the tap's
  weight per pixel spread over the channels; the bias, laid `[1, 1, 1, 32]` and spread, is added last. Its 183 host
  operations are printed in four consecutive windows; this file names what is alive at each window's end, in the
  operations' own spelling:

    * after window 0 — the padded map and the sum of taps 0 … 7 (`acc8`);
    * after window 1 — the sum of taps 0 … 15 (`acc16`) and, of tap 16 = (3, 1), its window of the padded map
      (`patch16`) and its weights with the trailing unit axis dropped and restored (`weight16`);
    * after window 2 — the sum of all 25 taps (`acc25`: tap 16 finished first) and the bias laid `[1, 1, 1, 32]`;
    * after window 3 — the result (`final`).

  Composed they are `refTerm`, one function of the padded map `P`, the weights `K` and the bias `B`. Each operation reads
  ONE entry of its operand (`window_apply`, `weight_apply`, `bias_apply`, `start_apply`, stated for any offsets), so
  at `(b, h, w, c)` `refTerm` is the specification's result, the same 25 products added in the same order from the same
  zero word, then the bias: `refTerm_eq_result`. No law of the extended reals and no finiteness is used.
-/
import proofs.«174641_j80814104641711_2_alg».proof.Proof.Gen.ReferenceIdeal
import proofs.«174641_j80814104641711_2_alg».proof.Proof.PixelConvSpec
import Idealize.ShloMosaic.Lib.Pipeline.Value
import Idealize.ShloMosaic.Lib.ValueIdx

noncomputable section

namespace Cert.ReferenceIdeal.RefValue

open Cert.ReferenceIdeal Cert.ReferenceIdeal.Gen Idealize.ShloMosaic Idealize.ShloMosaic.ValueIdx
open Cert.PixelConv (patchIdx tapIdx zeroWord)

/-! ## The operations read at an index -/

section Reads
variable (b : Fin 4) (h w : Fin 256) (ch : Fin 32)

/-- A 256 × 256 window of the padded map can start at most 4 rows and 4 columns in. -/
theorem window_lt {di dj : Nat} (hs : S4x260x260x32.Slices ![0, di, dj, 0] S4x256x256x32) : di < 5 ∧ dj < 5 := by
  obtain ⟨_, hs⟩ := hs
  have h1 := hs ⟨1, by decide⟩
  have h1' : di + 256 ≤ 260 := h1
  have h2 := hs ⟨2, by decide⟩
  have h2' : dj + 256 ≤ 260 := h2
  exact ⟨by omega, by omega⟩

/-- The window of the padded map that starts `di` rows and `dj` columns in, read at `(b, h, w, c)`: the padded map
    at `(b, di + h, dj + w, c)`. -/
theorem window_apply (P : S4x260x260x32.Idx → EReal) (di dj : Nat) (hs : S4x260x260x32.Slices ![0, di, dj, 0] S4x256x256x32) :
    extractStridedSlice S4x256x256x32 ![0, di, dj, 0] P hs (ix4 b h w ch)
      = P (patchIdx b h w ch ⟨di, (window_lt hs).1⟩ ⟨dj, (window_lt hs).2⟩) :=
  extractStridedSlice_apply ![0, di, dj, 0] P hs (ix4 b h w ch) _ (fun a => match a with
    | ⟨0, _⟩ => by show b.val = 0 + b.val; omega
    | ⟨1, _⟩ => by show di + h.val = di + h.val; rfl
    | ⟨2, _⟩ => by show dj + w.val = dj + w.val; rfl
    | ⟨3, _⟩ => by show ch.val = 0 + ch.val; omega)

/-- One weight per pixel can be sliced out at a tap below 25. -/
theorem tap_lt {n : Nat} (hs : S4x256x256x25.Slices ![0, 0, 0, n] S4x256x256x1) : n < 25 := by
  obtain ⟨_, hs⟩ := hs
  have h3 := hs ⟨3, by decide⟩
  have h3' : n + 1 ≤ 25 := h3
  omega

/-- Tap `n`'s weights `[..., n:n+1]`, with the trailing unit axis dropped, restored and spread over the channels, read
    at `(b, h, w, c)`: the weights at `(b, h, w, n)`, whatever the channel. -/
theorem weight_apply (K : S4x256x256x25.Idx → EReal) (n : Nat) (hs : S4x256x256x25.Slices ![0, 0, 0, n] S4x256x256x1)
    (h2 : S4x256x256x1.ShapeCasts S4x256x256) (h3 : S4x256x256.BroadcastsInDim S4x256x256x1 ![0, 1, 2])
    (h4 : S4x256x256x1.BroadcastsInDim S4x256x256x32 ![0, 1, 2, 3]) :
    broadcastInDim S4x256x256x32 ![0, 1, 2, 3] h4 (broadcastInDim S4x256x256x1 ![0, 1, 2] h3
        (shapeCast S4x256x256 (extractStridedSlice S4x256x256x1 ![0, 0, 0, n] K hs) h2)) (ix4 b h w ch)
      = K (tapIdx b h w ⟨n, tap_lt hs⟩) := by
  refine (broadcastInDim_apply _ h4 _ (ix4 b h w ch) (ix4 b h w (0 : Fin 1)) (fun a => match a with
    | ⟨0, _⟩ => by show b.val = if (4 : Nat) = 1 then 0 else b.val; rw [if_neg (by decide)]
    | ⟨1, _⟩ => by show h.val = if (256 : Nat) = 1 then 0 else h.val; rw [if_neg (by decide)]
    | ⟨2, _⟩ => by show w.val = if (256 : Nat) = 1 then 0 else w.val; rw [if_neg (by decide)]
    | ⟨3, _⟩ => by show (0 : Nat) = if (1 : Nat) = 1 then 0 else ch.val; rw [if_pos rfl])).trans ?_
  refine (broadcastInDim_apply _ h3 _ (ix4 b h w (0 : Fin 1)) (ix3 b h w) (fun a => match a with
    | ⟨0, _⟩ => by show b.val = if (4 : Nat) = 1 then 0 else b.val; rw [if_neg (by decide)]
    | ⟨1, _⟩ => by show h.val = if (256 : Nat) = 1 then 0 else h.val; rw [if_neg (by decide)]
    | ⟨2, _⟩ => by show w.val = if (256 : Nat) = 1 then 0 else w.val; rw [if_neg (by decide)])).trans ?_
  refine (shapeCast_apply _ h2 (ix3 b h w) (ix4 b h w (0 : Fin 1)) (by
    rewrite [Shape.rowMajor_val_four, Shape.rowMajor_val_three]
    show ((b.val * 256 + h.val) * 256 + w.val) * 1 + 0 = (b.val * 256 + h.val) * 256 + w.val
    omega)).trans ?_
  exact extractStridedSlice_apply ![0, 0, 0, n] K hs (ix4 b h w (0 : Fin 1)) _ (fun a => match a with
    | ⟨0, _⟩ => by show b.val = 0 + b.val; omega
    | ⟨1, _⟩ => by show h.val = 0 + h.val; omega
    | ⟨2, _⟩ => by show w.val = 0 + w.val; omega
    | ⟨3, _⟩ => by show n = n + 0; omega)

/-- The bias laid as `[1, 1, 1, 32]` and spread over batch and pixels, read at `(b, h, w, c)`: the bias at `c`. -/
theorem bias_apply (B : S32.Idx → EReal) (h1 : S32.BroadcastsInDim S1x1x1x32 ![3])
    (h2 : S1x1x1x32.BroadcastsInDim S4x256x256x32 ![0, 1, 2, 3]) :
    broadcastInDim S4x256x256x32 ![0, 1, 2, 3] h2 (broadcastInDim S1x1x1x32 ![3] h1 B) (ix4 b h w ch) = B (ix1 ch) := by
  refine (broadcastInDim_apply _ h2 _ (ix4 b h w ch) (ix4 (0 : Fin 1) (0 : Fin 1) (0 : Fin 1) ch) (fun a => match a with
    | ⟨0, _⟩ => by show (0 : Nat) = if (1 : Nat) = 1 then 0 else b.val; rw [if_pos rfl]
    | ⟨1, _⟩ => by show (0 : Nat) = if (1 : Nat) = 1 then 0 else h.val; rw [if_pos rfl]
    | ⟨2, _⟩ => by show (0 : Nat) = if (1 : Nat) = 1 then 0 else w.val; rw [if_pos rfl]
    | ⟨3, _⟩ => by show ch.val = if (32 : Nat) = 1 then 0 else ch.val; rw [if_neg (by decide)])).trans ?_
  exact broadcastInDim_apply _ h1 B (ix4 (0 : Fin 1) (0 : Fin 1) (0 : Fin 1) ch) (ix1 ch) (fun a => match a with
    | ⟨0, _⟩ => by show ch.val = if (32 : Nat) = 1 then 0 else ch.val; rw [if_neg (by decide)])

/-- The running sum's start, the f32 zero spread over the whole result, read anywhere: the zero word. -/
theorem start_apply (hz : S_.BroadcastsInDim S4x256x256x32 ![]) :
    broadcastInDim S4x256x256x32 ![] hz (constant (F := Ideal) S_ .f32 0x00000000#32) (ix4 b h w ch) = zeroWord :=
  broadcastInDim_apply _ hz _ (ix4 b h w ch) ix0 (fun a => a.elim0)

end Reads

/-! ## The values alive at each window's end -/

/-- The host's pad of the feature map, in the reference's spelling; it is the specification's `paddedMap`. -/
def padTerm (X : S4x256x256x32.Idx → EReal) : S4x260x260x32.Idx → EReal :=
  pad S4x260x260x32 ![0, 2, 2, 0] ![0, 2, 2, 0] ![0, 0, 0, 0] X (sitofp (F := Ideal) .f32 (constantI S_ 32 0#32))
    pads_S4x256x256x32_S4x260x260x32_000_220_220_000 h_S_

theorem padTerm_eq (X : S4x256x256x32.Idx → EReal) : padTerm X = PixelConv.paddedMap X := rfl

/-- The running sum's start: the f32 zero spread over the result's shape. -/
def start : FVec Ideal S4x256x256x32 .f32 :=
  broadcastInDim S4x256x256x32 ![] bcast_S_S4x256x256x32 (constant (F := Ideal) S_ .f32 0x00000000#32)

/-- Tap `n`'s weights, sliced out, the trailing unit axis dropped and restored: `[4, 256, 256, 1]`. -/
def weightCol (K : S4x256x256x25.Idx → EReal) (n : Nat) (hk : S4x256x256x25.Slices ![0, 0, 0, n] S4x256x256x1) :
    FVec Ideal S4x256x256x1 .f32 :=
  broadcastInDim S4x256x256x1 ![0, 1, 2] bcast_S4x256x256_S4x256x256x1_0_1_2
    (shapeCast S4x256x256 (extractStridedSlice S4x256x256x1 ![0, 0, 0, n] K hk) shapeCasts_S4x256x256x1_S4x256x256)

/-- A weight column spread over the 32 channels. -/
def spreadCol (Q : FVec Ideal S4x256x256x1 .f32) : FVec Ideal S4x256x256x32 .f32 :=
  broadcastInDim S4x256x256x32 ![0, 1, 2, 3] bcast_S4x256x256x1_S4x256x256x32_0_1_2_3 Q

/-- The window of the padded map that starts `di` rows and `dj` columns in. -/
def patchOf (P : S4x260x260x32.Idx → EReal) (di dj : Nat) (hs : S4x260x260x32.Slices ![0, di, dj, 0] S4x256x256x32) :
    FVec Ideal S4x256x256x32 .f32 :=
  extractStridedSlice S4x256x256x32 ![0, di, dj, 0] P hs

/-- One tap's product over the whole result. -/
def tapTerm (P : S4x260x260x32.Idx → EReal) (K : S4x256x256x25.Idx → EReal) (di dj n : Nat)
    (hs : S4x260x260x32.Slices ![0, di, dj, 0] S4x256x256x32) (hk : S4x256x256x25.Slices ![0, 0, 0, n] S4x256x256x1) :
    FVec Ideal S4x256x256x32 .f32 :=
  mulf (patchOf P di dj hs) (spreadCol (weightCol K n hk))

/-- After window 0: taps 0 … 7 added to the start. -/
def acc8 (P : S4x260x260x32.Idx → EReal) (K : S4x256x256x25.Idx → EReal) : FVec Ideal S4x256x256x32 .f32 :=
  addf (addf (addf (addf (addf (addf (addf (addf start
    (tapTerm P K 0 0 0 (by decide) (by decide))) (tapTerm P K 0 1 1 (by decide) (by decide))) (tapTerm P K 0 2 2 (by decide) (by decide))) (tapTerm P K 0 3 3 (by decide) (by decide)))
    (tapTerm P K 0 4 4 (by decide) (by decide))) (tapTerm P K 1 0 5 (by decide) (by decide))) (tapTerm P K 1 1 6 (by decide) (by decide))) (tapTerm P K 1 2 7 (by decide) (by decide))

/-- After window 1: taps 8 … 15 added to what window 0 left. -/
def acc16 (A : FVec Ideal S4x256x256x32 .f32) (P : S4x260x260x32.Idx → EReal) (K : S4x256x256x25.Idx → EReal) :
    FVec Ideal S4x256x256x32 .f32 :=
  addf (addf (addf (addf (addf (addf (addf (addf A
    (tapTerm P K 1 3 8 (by decide) (by decide))) (tapTerm P K 1 4 9 (by decide) (by decide))) (tapTerm P K 2 0 10 (by decide) (by decide))) (tapTerm P K 2 1 11 (by decide) (by decide)))
    (tapTerm P K 2 2 12 (by decide) (by decide))) (tapTerm P K 2 3 13 (by decide) (by decide))) (tapTerm P K 2 4 14 (by decide) (by decide))) (tapTerm P K 3 0 15 (by decide) (by decide))

/-- Tap 16 = (3, 1) straddles windows 1 and 2: window 1 leaves its weights column and its patch. -/
def weight16 (K : S4x256x256x25.Idx → EReal) : FVec Ideal S4x256x256x1 .f32 := weightCol K 16 (by decide)
def patch16 (P : S4x260x260x32.Idx → EReal) : FVec Ideal S4x256x256x32 .f32 := patchOf P 3 1 (by decide)

/-- After window 2: tap 16 finished from what window 1 left of it, then taps 17 … 24. -/
def acc25 (A : FVec Ideal S4x256x256x32 .f32) (Q : FVec Ideal S4x256x256x1 .f32) (Pq : FVec Ideal S4x256x256x32 .f32)
    (P : S4x260x260x32.Idx → EReal) (K : S4x256x256x25.Idx → EReal) : FVec Ideal S4x256x256x32 .f32 :=
  addf (addf (addf (addf (addf (addf (addf (addf (addf A (mulf Pq (spreadCol Q)))
    (tapTerm P K 3 2 17 (by decide) (by decide))) (tapTerm P K 3 3 18 (by decide) (by decide))) (tapTerm P K 3 4 19 (by decide) (by decide))) (tapTerm P K 4 0 20 (by decide) (by decide)))
    (tapTerm P K 4 1 21 (by decide) (by decide))) (tapTerm P K 4 2 22 (by decide) (by decide))) (tapTerm P K 4 3 23 (by decide) (by decide))) (tapTerm P K 4 4 24 (by decide) (by decide))

/-- The bias laid as `[1, 1, 1, 32]` (window 2's last operation). -/
def biasRow (B : S32.Idx → EReal) : FVec Ideal S1x1x1x32 .f32 := broadcastInDim S1x1x1x32 ![3] bcast_S32_S1x1x1x32_3 B

/-- After window 3: the spread bias added. -/
def final (A : FVec Ideal S4x256x256x32 .f32) (Bq : FVec Ideal S1x1x1x32 .f32) : FVec Ideal S4x256x256x32 .f32 :=
  addf A (broadcastInDim S4x256x256x32 ![0, 1, 2, 3] bcast_S1x1x1x32_S4x256x256x32_0_1_2_3 Bq)

/-- The reference's result as one function of the padded map, the weights and the bias. -/
def refTerm (P : S4x260x260x32.Idx → EReal) (K : S4x256x256x25.Idx → EReal) (B : S32.Idx → EReal) :
    FVec Ideal S4x256x256x32 .f32 :=
  final (acc25 (acc16 (acc8 P K) P K) (weight16 K) (patch16 P) P K) (biasRow B)

/-- THE REFERENCE'S RESULT IS THE SPECIFICATION'S: at every index the same 25 products added in the same order from
    the same zero word, then the bias. -/
theorem refTerm_eq_result (P : S4x260x260x32.Idx → EReal) (K : S4x256x256x25.Idx → EReal) (B : S32.Idx → EReal) :
    (refTerm P K B : S4x256x256x32.Idx → EReal) = PixelConv.result P K B := by
  funext i
  obtain ⟨b, h, w, ch, rfl⟩ : ∃ (b : Fin 4) (h w : Fin 256) (ch : Fin 32), i = ix4 b h w ch :=
    ⟨i 0, i 1, i 2, i 3, eq_ix4 i⟩
  unfold refTerm final acc25 acc16 acc8 weight16 patch16 biasRow tapTerm spreadCol weightCol patchOf start
  simp only [addf_apply, mulf_apply, window_apply]
  rw [start_apply b h w ch, bias_apply b h w ch B]
  repeat rw [weight_apply b h w ch K]
  unfold PixelConv.result PixelConv.taps PixelConv.sum25
  rfl

end Cert.ReferenceIdeal.RefValue

end
-- ==== Proof.RefEval0.lean ====
/-
  What the reference's first window leaves, from ANY contents `W` of the buffers: it pads the feature map, spreads the zero
  and adds taps 0 … 7. So the padded buffer holds the pad of the feature map, the running sum `acc8` of it and of the
  weights, and the three arguments are untouched (each operation writes its own fresh buffer).
-/
import proofs.«174641_j80814104641711_2_alg».proof.Proof.RefWindow0
import proofs.«174641_j80814104641711_2_alg».proof.Proof.RefTerms

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefValue

variable (W : Valuation τ sig (Elt Ideal))

/-- The padded buffer: the pad of the feature map. -/
theorem eval0_pad : after (ops0 (F := Ideal)) W (Proc.devRef .tc main_v0) = padTerm (W (Proc.devRef .tc main_arg0)) := by
  unfold ops0; after_results_simp <;> rfl

/-- The running sum after taps 0 … 7. -/
theorem eval0_acc : after (ops0 (F := Ideal)) W (Proc.devRef .tc main_v57)
    = acc8 (padTerm (W (Proc.devRef .tc main_arg0))) (W (Proc.devRef .tc main_arg1)) := by
  unfold ops0; after_results_simp <;> rfl

/-- The arguments are untouched. -/
theorem eval0_arg0 : after (ops0 (F := Ideal)) W (Proc.devRef .tc main_arg0) = W (Proc.devRef .tc main_arg0) := by
  unfold ops0; after_results_simp <;> rfl
theorem eval0_arg1 : after (ops0 (F := Ideal)) W (Proc.devRef .tc main_arg1) = W (Proc.devRef .tc main_arg1) := by
  unfold ops0; after_results_simp <;> rfl
theorem eval0_arg2 : after (ops0 (F := Ideal)) W (Proc.devRef .tc main_arg2) = W (Proc.devRef .tc main_arg2) := by
  unfold ops0; after_results_simp <;> rfl

end Cert.ReferenceIdeal.RefRun

end
-- ==== Proof.RefWindow1.lean ====
import proofs.«174641_j80814104641711_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 62 … 121 of the reference's @main, in order: the printed window `main_part1`. -/
def ops1 : List (HloOp τ sig (Elt F)) :=
  [ unary main_arg1 main_v58 ((extractStridedSlice S4x256x256x1 ![0, 0, 0, 8] · slices_S4x256x256x25_S4x256x256x1_0_0_0_8) : (⟨S4x256x256x25, .f32⟩ : BufTy).Contents (Elt F) → (⟨S4x256x256x1, .f32⟩ : BufTy).Contents (Elt F)),
    reshape main_v58 main_v59 rfl shapeCasts_S4x256x256x1_S4x256x256,
    unary main_v59 main_v60 (broadcastInDim S4x256x256x1 ![0, 1, 2] bcast_S4x256x256_S4x256x256x1_0_1_2 : (⟨S4x256x256, .f32⟩ : BufTy).Contents (Elt F) → (⟨S4x256x256x1, .f32⟩ : BufTy).Contents (Elt F)),
    unary main_v0 main_v61 ((extractStridedSlice S4x256x256x32 ![0, 1, 3, 0] · slices_S4x260x260x32_S4x256x256x32_0_1_3_0) : (⟨S4x260x260x32, .f32⟩ : BufTy).Contents (Elt F) → (⟨S4x256x256x32, .f32⟩ : BufTy).Contents (Elt F)),
    unary main_v60 main_v62 (broadcastInDim S4x256x256x32 ![0, 1, 2, 3] bcast_S4x256x256x1_S4x256x256x32_0_1_2_3 : (⟨S4x256x256x1, .f32⟩ : BufTy).Contents (Elt F) → (⟨S4x256x256x32, .f32⟩ : BufTy).Contents (Elt F)),
    binary main_v61 main_v62 main_v63 (mulf : (⟨S4x256x256x32, .f32⟩ : BufTy).Contents (Elt F) → (⟨S4x256x256x32, .f32⟩ : BufTy).Contents (Elt F) → (⟨S4x256x256x32, .f32⟩ : BufTy).Contents (Elt F)),
    binary main_v57 main_v63 main_v64 (addf : (⟨S4x256x256x32, .f32⟩ : BufTy).Contents (Elt F) → (⟨S4x256x256x32, .f32⟩ : BufTy).Contents (Elt F) → (⟨S4x256x256x32, .f32⟩ : BufTy).Contents (Elt F)),
    unary main_arg1 main_v65 ((extractStridedSlice S4x256x256x1 ![0, 0, 0, 9] · slices_S4x256x256x25_S4x256x256x1_0_0_0_9) : (⟨S4x256x256x25, .f32⟩ : BufTy).Contents (Elt F) → (⟨S4x256x256x1, .f32⟩ : BufTy).Contents (Elt F)),
    reshape main_v65 main_v66 rfl shapeCasts_S4x256x256x1_S4x256x256,
    unary main_v66 main_v67 (broadcastInDim S4x256x256x1 ![0, 1, 2] bcast_S4x256x256_S4x256x256x1_0_1_2 : (⟨S4x256x256, .f32⟩ : BufTy).Contents (Elt F) → (⟨S4x256x256x1, .f32⟩ : BufTy).Contents (Elt F)),
    unary main_v0 main_v68 ((extractStridedSlice S4x256x256x32 ![0, 1, 4, 0] · slices_S4x260x260x32_S4x256x256x32_0_1_4_0) : (⟨S4x260x260x32, .f32⟩ : BufTy).Contents (Elt F) → (⟨S4x256x256x32, .f32⟩ : BufTy).Contents (Elt F)),
    unary main_v67 main_v69 (broadcastInDim S4x256x256x32 ![0, 1, 2, 3] bcast_S4x256x256x1_S4x256x256x32_0_1_2_3 : (⟨S4x256x256x1, .f32⟩ : BufTy).Contents (Elt F) → (⟨S4x256x256x32, .f32⟩ : BufTy).Contents (Elt F)),
    binary main_v68 main_v69 main_v70 (mulf : (⟨S4x256x256x32, .f32⟩ : BufTy).Contents (Elt F) → (⟨S4x256x256x32, .f32⟩ : BufTy).Contents (Elt F) → (⟨S4x256x256x32, .f32⟩ : BufTy).Contents (Elt F)),
    binary main_v64 main_v70 main_v71 (addf : (⟨S4x256x256x32, .f32⟩ : BufTy).Contents (Elt F) → (⟨S4x256x256x32, .f32⟩ : BufTy).Contents (Elt F) → (⟨S4x256x256x32, .f32⟩ : BufTy).Contents (Elt F)),
    unary main_arg1 main_v72 ((extractStridedSlice S4x256x256x1 ![0, 0, 0, 10] · slices_S4x256x256x25_S4x256x256x1_0_0_0_10) : (⟨S4x256x256x25, .f32⟩ : BufTy).Contents (Elt F) → (⟨S4x256x256x1, .f32⟩ : BufTy).Contents (Elt F)),
    reshape main_v72 main_v73 rfl shapeCasts_S4x256x256x1_S4x256x256,
    unary main_v73 main_v74 (broadcastInDim S4x256x256x1 ![0, 1, 2] bcast_S4x256x256_S4x256x256x1_0_1_2 : (⟨S4x256x256, .f32⟩ : BufTy).Contents (Elt F) → (⟨S4x256x256x1, .f32⟩ : BufTy).Contents (Elt F)),
    unary main_v0 main_v75 ((extractStridedSlice S4x256x256x32 ![0, 2, 0, 0] · slices_S4x260x260x32_S4x256x256x32_0_2_0_0) : (⟨S4x260x260x32, .f32⟩ : BufTy).Contents (Elt F) → (⟨S4x256x256x32, .f32⟩ : BufTy).Contents (Elt F)),
    unary main_v74 main_v76 (broadcastInDim S4x256x256x32 ![0, 1, 2, 3] bcast_S4x256x256x1_S4x256x256x32_0_1_2_3 : (⟨S4x256x256x1, .f32⟩ : BufTy).Contents (Elt F) → (⟨S4x256x256x32, .f32⟩ : BufTy).Contents (Elt F)),
    binary main_v75 main_v76 main_v77 (mulf : (⟨S4x256x256x32, .f32⟩ : BufTy).Contents (Elt F) → (⟨S4x256x256x32, .f32⟩ : BufTy).Contents (Elt F) → (⟨S4x256x256x32, .f32⟩ : BufTy).Contents (Elt F)),
    binary main_v71 main_v77 main_v78 (addf : (⟨S4x256x256x32, .f32⟩ : BufTy).Contents (Elt F) → (⟨S4x256x256x32, .f32⟩ : BufTy).Contents (Elt F) → (⟨S4x256x256x32, .f32⟩ : BufTy).Contents (Elt F)),
    unary main_arg1 main_v79 ((extractStridedSlice S4x256x256x1 ![0, 0, 0, 11] · slices_S4x256x256x25_S4x256x256x1_0_0_0_11) : (⟨S4x256x256x25, .f32⟩ : BufTy).Contents (Elt F) → (⟨S4x256x256x1, .f32⟩ : BufTy).Contents (Elt F)),
    reshape main_v79 main_v80 rfl shapeCasts_S4x256x256x1_S4x256x256,
    unary main_v80 main_v81 (broadcastInDim S4x256x256x1 ![0, 1, 2] bcast_S4x256x256_S4x256x256x1_0_1_2 : (⟨S4x256x256, .f32⟩ : BufTy).Contents (Elt F) → (⟨S4x256x256x1, .f32⟩ : BufTy).Contents (Elt F)),
    unary main_v0 main_v82 ((extractStridedSlice S4x256x256x32 ![0, 2, 1, 0] · slices_S4x260x260x32_S4x256x256x32_0_2_1_0) : (⟨S4x260x260x32, .f32⟩ : BufTy).Contents (Elt F) → (⟨S4x256x256x32, .f32⟩ : BufTy).Contents (Elt F)),
    unary main_v81 main_v83 (broadcastInDim S4x256x256x32 ![0, 1, 2, 3] bcast_S4x256x256x1_S4x256x256x32_0_1_2_3 : (⟨S4x256x256x1, .f32⟩ : BufTy).Contents (Elt F) → (⟨S4x256x256x32, .f32⟩ : BufTy).Contents (Elt F)),
    binary main_v82 main_v83 main_v84 (mulf : (⟨S4x256x256x32, .f32⟩ : BufTy).Contents (Elt F) → (⟨S4x256x256x32, .f32⟩ : BufTy).Contents (Elt F) → (⟨S4x256x256x32, .f32⟩ : BufTy).Contents (Elt F)),
    binary main_v78 main_v84 main_v85 (addf : (⟨S4x256x256x32, .f32⟩ : BufTy).Contents (Elt F) → (⟨S4x256x256x32, .f32⟩ : BufTy).Contents (Elt F) → (⟨S4x256x256x32, .f32⟩ : BufTy).Contents (Elt F)),
    unary main_arg1 main_v86 ((extractStridedSlice S4x256x256x1 ![0, 0, 0, 12] · slices_S4x256x256x25_S4x256x256x1_0_0_0_12) : (⟨S4x256x256x25, .f32⟩ : BufTy).Contents (Elt F) → (⟨S4x256x256x1, .f32⟩ : BufTy).Contents (Elt F)),
    reshape main_v86 main_v87 rfl shapeCasts_S4x256x256x1_S4x256x256,
    unary main_v87 main_v88 (broadcastInDim S4x256x256x1 ![0, 1, 2] bcast_S4x256x256_S4x256x256x1_0_1_2 : (⟨S4x256x256, .f32⟩ : BufTy).Contents (Elt F) → (⟨S4x256x256x1, .f32⟩ : BufTy).Contents (Elt F)),
    unary main_v0 main_v89 ((extractStridedSlice S4x256x256x32 ![0, 2, 2, 0] · slices_S4x260x260x32_S4x256x256x32_0_2_2_0) : (⟨S4x260x260x32, .f32⟩ : BufTy).Contents (Elt F) → (⟨S4x256x256x32, .f32⟩ : BufTy).Contents (Elt F)),
    unary main_v88 main_v90 (broadcastInDim S4x256x256x32 ![0, 1, 2, 3] bcast_S4x256x256x1_S4x256x256x32_0_1_2_3 : (⟨S4x256x256x1, .f32⟩ : BufTy).Contents (Elt F) → (⟨S4x256x256x32, .f32⟩ : BufTy).Contents (Elt F)),
    binary main_v89 main_v90 main_v91 (mulf : (⟨S4x256x256x32, .f32⟩ : BufTy).Contents (Elt F) → (⟨S4x256x256x32, .f32⟩ : BufTy).Contents (Elt F) → (⟨S4x256x256x32, .f32⟩ : BufTy).Contents (Elt F)),
    binary main_v85 main_v91 main_v92 (addf : (⟨S4x256x256x32, .f32⟩ : BufTy).Contents (Elt F) → (⟨S4x256x256x32, .f32⟩ : BufTy).Contents (Elt F) → (⟨S4x256x256x32, .f32⟩ : BufTy).Contents (Elt F)),
    unary main_arg1 main_v93 ((extractStridedSlice S4x256x256x1 ![0, 0, 0, 13] · slices_S4x256x256x25_S4x256x256x1_0_0_0_13) : (⟨S4x256x256x25, .f32⟩ : BufTy).Contents (Elt F) → (⟨S4x256x256x1, .f32⟩ : BufTy).Contents (Elt F)),
    reshape main_v93 main_v94 rfl shapeCasts_S4x256x256x1_S4x256x256,
    unary main_v94 main_v95 (broadcastInDim S4x256x256x1 ![0, 1, 2] bcast_S4x256x256_S4x256x256x1_0_1_2 : (⟨S4x256x256, .f32⟩ : BufTy).Contents (Elt F) → (⟨S4x256x256x1, .f32⟩ : BufTy).Contents (Elt F)),
    unary main_v0 main_v96 ((extractStridedSlice S4x256x256x32 ![0, 2, 3, 0] · slices_S4x260x260x32_S4x256x256x32_0_2_3_0) : (⟨S4x260x260x32, .f32⟩ : BufTy).Contents (Elt F) → (⟨S4x256x256x32, .f32⟩ : BufTy).Contents (Elt F)),
    unary main_v95 main_v97 (broadcastInDim S4x256x256x32 ![0, 1, 2, 3] bcast_S4x256x256x1_S4x256x256x32_0_1_2_3 : (⟨S4x256x256x1, .f32⟩ : BufTy).Contents (Elt F) → (⟨S4x256x256x32, .f32⟩ : BufTy).Contents (Elt F)),
    binary main_v96 main_v97 main_v98 (mulf : (⟨S4x256x256x32, .f32⟩ : BufTy).Contents (Elt F) → (⟨S4x256x256x32, .f32⟩ : BufTy).Contents (Elt F) → (⟨S4x256x256x32, .f32⟩ : BufTy).Contents (Elt F)),
    binary main_v92 main_v98 main_v99 (addf : (⟨S4x256x256x32, .f32⟩ : BufTy).Contents (Elt F) → (⟨S4x256x256x32, .f32⟩ : BufTy).Contents (Elt F) → (⟨S4x256x256x32, .f32⟩ : BufTy).Contents (Elt F)),
    unary main_arg1 main_v100 ((extractStridedSlice S4x256x256x1 ![0, 0, 0, 14] · slices_S4x256x256x25_S4x256x256x1_0_0_0_14) : (⟨S4x256x256x25, .f32⟩ : BufTy).Contents (Elt F) → (⟨S4x256x256x1, .f32⟩ : BufTy).Contents (Elt F)),
    reshape main_v100 main_v101 rfl shapeCasts_S4x256x256x1_S4x256x256,
    unary main_v101 main_v102 (broadcastInDim S4x256x256x1 ![0, 1, 2] bcast_S4x256x256_S4x256x256x1_0_1_2 : (⟨S4x256x256, .f32⟩ : BufTy).Contents (Elt F) → (⟨S4x256x256x1, .f32⟩ : BufTy).Contents (Elt F)),
    unary main_v0 main_v103 ((extractStridedSlice S4x256x256x32 ![0, 2, 4, 0] · slices_S4x260x260x32_S4x256x256x32_0_2_4_0) : (⟨S4x260x260x32, .f32⟩ : BufTy).Contents (Elt F) → (⟨S4x256x256x32, .f32⟩ : BufTy).Contents (Elt F)),
    unary main_v102 main_v104 (broadcastInDim S4x256x256x32 ![0, 1, 2, 3] bcast_S4x256x256x1_S4x256x256x32_0_1_2_3 : (⟨S4x256x256x1, .f32⟩ : BufTy).Contents (Elt F) → (⟨S4x256x256x32, .f32⟩ : BufTy).Contents (Elt F)),
    binary main_v103 main_v104 main_v105 (mulf : (⟨S4x256x256x32, .f32⟩ : BufTy).Contents (Elt F) → (⟨S4x256x256x32, .f32⟩ : BufTy).Contents (Elt F) → (⟨S4x256x256x32, .f32⟩ : BufTy).Contents (Elt F)),
    binary main_v99 main_v105 main_v106 (addf : (⟨S4x256x256x32, .f32⟩ : BufTy).Contents (Elt F) → (⟨S4x256x256x32, .f32⟩ : BufTy).Contents (Elt F) → (⟨S4x256x256x32, .f32⟩ : BufTy).Contents (Elt F)),
    unary main_arg1 main_v107 ((extractStridedSlice S4x256x256x1 ![0, 0, 0, 15] · slices_S4x256x256x25_S4x256x256x1_0_0_0_15) : (⟨S4x256x256x25, .f32⟩ : BufTy).Contents (Elt F) → (⟨S4x256x256x1, .f32⟩ : BufTy).Contents (Elt F)),
    reshape main_v107 main_v108 rfl shapeCasts_S4x256x256x1_S4x256x256,
    unary main_v108 main_v109 (broadcastInDim S4x256x256x1 ![0, 1, 2] bcast_S4x256x256_S4x256x256x1_0_1_2 : (⟨S4x256x256, .f32⟩ : BufTy).Contents (Elt F) → (⟨S4x256x256x1, .f32⟩ : BufTy).Contents (Elt F)),
    unary main_v0 main_v110 ((extractStridedSlice S4x256x256x32 ![0, 3, 0, 0] · slices_S4x260x260x32_S4x256x256x32_0_3_0_0) : (⟨S4x260x260x32, .f32⟩ : BufTy).Contents (Elt F) → (⟨S4x256x256x32, .f32⟩ : BufTy).Contents (Elt F)),
    unary main_v109 main_v111 (broadcastInDim S4x256x256x32 ![0, 1, 2, 3] bcast_S4x256x256x1_S4x256x256x32_0_1_2_3 : (⟨S4x256x256x1, .f32⟩ : BufTy).Contents (Elt F) → (⟨S4x256x256x32, .f32⟩ : BufTy).Contents (Elt F)),
    binary main_v110 main_v111 main_v112 (mulf : (⟨S4x256x256x32, .f32⟩ : BufTy).Contents (Elt F) → (⟨S4x256x256x32, .f32⟩ : BufTy).Contents (Elt F) → (⟨S4x256x256x32, .f32⟩ : BufTy).Contents (Elt F)),
    binary main_v106 main_v112 main_v113 (addf : (⟨S4x256x256x32, .f32⟩ : BufTy).Contents (Elt F) → (⟨S4x256x256x32, .f32⟩ : BufTy).Contents (Elt F) → (⟨S4x256x256x32, .f32⟩ : BufTy).Contents (Elt F)),
    unary main_arg1 main_v114 ((extractStridedSlice S4x256x256x1 ![0, 0, 0, 16] · slices_S4x256x256x25_S4x256x256x1_0_0_0_16) : (⟨S4x256x256x25, .f32⟩ : BufTy).Contents (Elt F) → (⟨S4x256x256x1, .f32⟩ : BufTy).Contents (Elt F)),
    reshape main_v114 main_v115 rfl shapeCasts_S4x256x256x1_S4x256x256,
    unary main_v115 main_v116 (broadcastInDim S4x256x256x1 ![0, 1, 2] bcast_S4x256x256_S4x256x256x1_0_1_2 : (⟨S4x256x256, .f32⟩ : BufTy).Contents (Elt F) → (⟨S4x256x256x1, .f32⟩ : BufTy).Contents (Elt F)),
    unary main_v0 main_v117 ((extractStridedSlice S4x256x256x32 ![0, 3, 1, 0] · slices_S4x260x260x32_S4x256x256x32_0_3_1_0) : (⟨S4x260x260x32, .f32⟩ : BufTy).Contents (Elt F) → (⟨S4x256x256x32, .f32⟩ : BufTy).Contents (Elt F)) ]

set_option maxRecDepth 8192 in
set_option maxHeartbeats 4000000 in
/-- The printed window is the line of its operations. -/
theorem part1_eq (c : Dev nD) : main_part1 (F := F) c = seq ops1 := rfl

set_option maxRecDepth 8192 in
/-- Each operation touches TensorCore references only. -/
theorem ops1_sub : (ops1 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub ..⟩

set_option maxRecDepth 8192 in
/-- Each operation determines its results (none allocates a buffer). -/
theorem ops1_fresh : (ops1 : List (HloOp τ sig (Elt F))).Forall fun op => op.fresh = ∅ := by
  unfold ops1; simp only [List.Forall]; repeat' constructor

end Cert.ReferenceIdeal.RefRun

end
-- ==== Proof.RefEval1.lean ====
/-
  What the reference's second window leaves, from ANY contents `W`: taps 8 … 15 added to the running sum it finds, and of
  tap 16 the weights column and the window of the padded map; the padded buffer and the arguments untouched.
-/
import proofs.«174641_j80814104641711_2_alg».proof.Proof.RefWindow1
import proofs.«174641_j80814104641711_2_alg».proof.Proof.RefTerms

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefValue

variable (W : Valuation τ sig (Elt Ideal))

/-- The running sum after taps 8 … 15, from the one found. -/
theorem eval1_acc : after (ops1 (F := Ideal)) W (Proc.devRef .tc main_v113)
    = acc16 (W (Proc.devRef .tc main_v57)) (W (Proc.devRef .tc main_v0)) (W (Proc.devRef .tc main_arg1)) := by
  unfold ops1; after_results_simp <;> rfl

/-- Tap 16's weights column. -/
theorem eval1_w16 : after (ops1 (F := Ideal)) W (Proc.devRef .tc main_v116) = weight16 (W (Proc.devRef .tc main_arg1)) := by
  unfold ops1; after_results_simp <;> rfl

/-- Tap 16's window of the padded map. -/
theorem eval1_p16 : after (ops1 (F := Ideal)) W (Proc.devRef .tc main_v117) = patch16 (W (Proc.devRef .tc main_v0)) := by
  unfold ops1; after_results_simp <;> rfl

/-- The padded buffer and the arguments are untouched. -/
theorem eval1_v0 : after (ops1 (F := Ideal)) W (Proc.devRef .tc main_v0) = W (Proc.devRef .tc main_v0) := by
  unfold ops1; after_results_simp <;> rfl
theorem eval1_arg0 : after (ops1 (F := Ideal)) W (Proc.devRef .tc main_arg0) = W (Proc.devRef .tc main_arg0) := by
  unfold ops1; after_results_simp <;> rfl
theorem eval1_arg1 : after (ops1 (F := Ideal)) W (Proc.devRef .tc main_arg1) = W (Proc.devRef .tc main_arg1) := by
  unfold ops1; after_results_simp <;> rfl
theorem eval1_arg2 : after (ops1 (F := Ideal)) W (Proc.devRef .tc main_arg2) = W (Proc.devRef .tc main_arg2) := by
  unfold ops1; after_results_simp <;> rfl

end Cert.ReferenceIdeal.RefRun

end
-- ==== Proof.RefWindow2.lean ====
import proofs.«174641_j80814104641711_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 122 … 181 of the reference's @main, in order: the printed window `main_part2`. -/
def ops2 : List (HloOp τ sig (Elt F)) :=
  [ unary main_v116 main_v118 (broadcastInDim S4x256x256x32 ![0, 1, 2, 3] bcast_S4x256x256x1_S4x256x256x32_0_1_2_3 : (⟨S4x256x256x1, .f32⟩ : BufTy).Contents (Elt F) → (⟨S4x256x256x32, .f32⟩ : BufTy).Contents (Elt F)),
    binary main_v117 main_v118 main_v119 (mulf : (⟨S4x256x256x32, .f32⟩ : BufTy).Contents (Elt F) → (⟨S4x256x256x32, .f32⟩ : BufTy).Contents (Elt F) → (⟨S4x256x256x32, .f32⟩ : BufTy).Contents (Elt F)),
    binary main_v113 main_v119 main_v120 (addf : (⟨S4x256x256x32, .f32⟩ : BufTy).Contents (Elt F) → (⟨S4x256x256x32, .f32⟩ : BufTy).Contents (Elt F) → (⟨S4x256x256x32, .f32⟩ : BufTy).Contents (Elt F)),
    unary main_arg1 main_v121 ((extractStridedSlice S4x256x256x1 ![0, 0, 0, 17] · slices_S4x256x256x25_S4x256x256x1_0_0_0_17) : (⟨S4x256x256x25, .f32⟩ : BufTy).Contents (Elt F) → (⟨S4x256x256x1, .f32⟩ : BufTy).Contents (Elt F)),
    reshape main_v121 main_v122 rfl shapeCasts_S4x256x256x1_S4x256x256,
    unary main_v122 main_v123 (broadcastInDim S4x256x256x1 ![0, 1, 2] bcast_S4x256x256_S4x256x256x1_0_1_2 : (⟨S4x256x256, .f32⟩ : BufTy).Contents (Elt F) → (⟨S4x256x256x1, .f32⟩ : BufTy).Contents (Elt F)),
    unary main_v0 main_v124 ((extractStridedSlice S4x256x256x32 ![0, 3, 2, 0] · slices_S4x260x260x32_S4x256x256x32_0_3_2_0) : (⟨S4x260x260x32, .f32⟩ : BufTy).Contents (Elt F) → (⟨S4x256x256x32, .f32⟩ : BufTy).Contents (Elt F)),
    unary main_v123 main_v125 (broadcastInDim S4x256x256x32 ![0, 1, 2, 3] bcast_S4x256x256x1_S4x256x256x32_0_1_2_3 : (⟨S4x256x256x1, .f32⟩ : BufTy).Contents (Elt F) → (⟨S4x256x256x32, .f32⟩ : BufTy).Contents (Elt F)),
    binary main_v124 main_v125 main_v126 (mulf : (⟨S4x256x256x32, .f32⟩ : BufTy).Contents (Elt F) → (⟨S4x256x256x32, .f32⟩ : BufTy).Contents (Elt F) → (⟨S4x256x256x32, .f32⟩ : BufTy).Contents (Elt F)),
    binary main_v120 main_v126 main_v127 (addf : (⟨S4x256x256x32, .f32⟩ : BufTy).Contents (Elt F) → (⟨S4x256x256x32, .f32⟩ : BufTy).Contents (Elt F) → (⟨S4x256x256x32, .f32⟩ : BufTy).Contents (Elt F)),
    unary main_arg1 main_v128 ((extractStridedSlice S4x256x256x1 ![0, 0, 0, 18] · slices_S4x256x256x25_S4x256x256x1_0_0_0_18) : (⟨S4x256x256x25, .f32⟩ : BufTy).Contents (Elt F) → (⟨S4x256x256x1, .f32⟩ : BufTy).Contents (Elt F)),
    reshape main_v128 main_v129 rfl shapeCasts_S4x256x256x1_S4x256x256,
    unary main_v129 main_v130 (broadcastInDim S4x256x256x1 ![0, 1, 2] bcast_S4x256x256_S4x256x256x1_0_1_2 : (⟨S4x256x256, .f32⟩ : BufTy).Contents (Elt F) → (⟨S4x256x256x1, .f32⟩ : BufTy).Contents (Elt F)),
    unary main_v0 main_v131 ((extractStridedSlice S4x256x256x32 ![0, 3, 3, 0] · slices_S4x260x260x32_S4x256x256x32_0_3_3_0) : (⟨S4x260x260x32, .f32⟩ : BufTy).Contents (Elt F) → (⟨S4x256x256x32, .f32⟩ : BufTy).Contents (Elt F)),
    unary main_v130 main_v132 (broadcastInDim S4x256x256x32 ![0, 1, 2, 3] bcast_S4x256x256x1_S4x256x256x32_0_1_2_3 : (⟨S4x256x256x1, .f32⟩ : BufTy).Contents (Elt F) → (⟨S4x256x256x32, .f32⟩ : BufTy).Contents (Elt F)),
    binary main_v131 main_v132 main_v133 (mulf : (⟨S4x256x256x32, .f32⟩ : BufTy).Contents (Elt F) → (⟨S4x256x256x32, .f32⟩ : BufTy).Contents (Elt F) → (⟨S4x256x256x32, .f32⟩ : BufTy).Contents (Elt F)),
    binary main_v127 main_v133 main_v134 (addf : (⟨S4x256x256x32, .f32⟩ : BufTy).Contents (Elt F) → (⟨S4x256x256x32, .f32⟩ : BufTy).Contents (Elt F) → (⟨S4x256x256x32, .f32⟩ : BufTy).Contents (Elt F)),
    unary main_arg1 main_v135 ((extractStridedSlice S4x256x256x1 ![0, 0, 0, 19] · slices_S4x256x256x25_S4x256x256x1_0_0_0_19) : (⟨S4x256x256x25, .f32⟩ : BufTy).Contents (Elt F) → (⟨S4x256x256x1, .f32⟩ : BufTy).Contents (Elt F)),
    reshape main_v135 main_v136 rfl shapeCasts_S4x256x256x1_S4x256x256,
    unary main_v136 main_v137 (broadcastInDim S4x256x256x1 ![0, 1, 2] bcast_S4x256x256_S4x256x256x1_0_1_2 : (⟨S4x256x256, .f32⟩ : BufTy).Contents (Elt F) → (⟨S4x256x256x1, .f32⟩ : BufTy).Contents (Elt F)),
    unary main_v0 main_v138 ((extractStridedSlice S4x256x256x32 ![0, 3, 4, 0] · slices_S4x260x260x32_S4x256x256x32_0_3_4_0) : (⟨S4x260x260x32, .f32⟩ : BufTy).Contents (Elt F) → (⟨S4x256x256x32, .f32⟩ : BufTy).Contents (Elt F)),
    unary main_v137 main_v139 (broadcastInDim S4x256x256x32 ![0, 1, 2, 3] bcast_S4x256x256x1_S4x256x256x32_0_1_2_3 : (⟨S4x256x256x1, .f32⟩ : BufTy).Contents (Elt F) → (⟨S4x256x256x32, .f32⟩ : BufTy).Contents (Elt F)),
    binary main_v138 main_v139 main_v140 (mulf : (⟨S4x256x256x32, .f32⟩ : BufTy).Contents (Elt F) → (⟨S4x256x256x32, .f32⟩ : BufTy).Contents (Elt F) → (⟨S4x256x256x32, .f32⟩ : BufTy).Contents (Elt F)),
    binary main_v134 main_v140 main_v141 (addf : (⟨S4x256x256x32, .f32⟩ : BufTy).Contents (Elt F) → (⟨S4x256x256x32, .f32⟩ : BufTy).Contents (Elt F) → (⟨S4x256x256x32, .f32⟩ : BufTy).Contents (Elt F)),
    unary main_arg1 main_v142 ((extractStridedSlice S4x256x256x1 ![0, 0, 0, 20] · slices_S4x256x256x25_S4x256x256x1_0_0_0_20) : (⟨S4x256x256x25, .f32⟩ : BufTy).Contents (Elt F) → (⟨S4x256x256x1, .f32⟩ : BufTy).Contents (Elt F)),
    reshape main_v142 main_v143 rfl shapeCasts_S4x256x256x1_S4x256x256,
    unary main_v143 main_v144 (broadcastInDim S4x256x256x1 ![0, 1, 2] bcast_S4x256x256_S4x256x256x1_0_1_2 : (⟨S4x256x256, .f32⟩ : BufTy).Contents (Elt F) → (⟨S4x256x256x1, .f32⟩ : BufTy).Contents (Elt F)),
    unary main_v0 main_v145 ((extractStridedSlice S4x256x256x32 ![0, 4, 0, 0] · slices_S4x260x260x32_S4x256x256x32_0_4_0_0) : (⟨S4x260x260x32, .f32⟩ : BufTy).Contents (Elt F) → (⟨S4x256x256x32, .f32⟩ : BufTy).Contents (Elt F)),
    unary main_v144 main_v146 (broadcastInDim S4x256x256x32 ![0, 1, 2, 3] bcast_S4x256x256x1_S4x256x256x32_0_1_2_3 : (⟨S4x256x256x1, .f32⟩ : BufTy).Contents (Elt F) → (⟨S4x256x256x32, .f32⟩ : BufTy).Contents (Elt F)),
    binary main_v145 main_v146 main_v147 (mulf : (⟨S4x256x256x32, .f32⟩ : BufTy).Contents (Elt F) → (⟨S4x256x256x32, .f32⟩ : BufTy).Contents (Elt F) → (⟨S4x256x256x32, .f32⟩ : BufTy).Contents (Elt F)),
    binary main_v141 main_v147 main_v148 (addf : (⟨S4x256x256x32, .f32⟩ : BufTy).Contents (Elt F) → (⟨S4x256x256x32, .f32⟩ : BufTy).Contents (Elt F) → (⟨S4x256x256x32, .f32⟩ : BufTy).Contents (Elt F)),
    unary main_arg1 main_v149 ((extractStridedSlice S4x256x256x1 ![0, 0, 0, 21] · slices_S4x256x256x25_S4x256x256x1_0_0_0_21) : (⟨S4x256x256x25, .f32⟩ : BufTy).Contents (Elt F) → (⟨S4x256x256x1, .f32⟩ : BufTy).Contents (Elt F)),
    reshape main_v149 main_v150 rfl shapeCasts_S4x256x256x1_S4x256x256,
    unary main_v150 main_v151 (broadcastInDim S4x256x256x1 ![0, 1, 2] bcast_S4x256x256_S4x256x256x1_0_1_2 : (⟨S4x256x256, .f32⟩ : BufTy).Contents (Elt F) → (⟨S4x256x256x1, .f32⟩ : BufTy).Contents (Elt F)),
    unary main_v0 main_v152 ((extractStridedSlice S4x256x256x32 ![0, 4, 1, 0] · slices_S4x260x260x32_S4x256x256x32_0_4_1_0) : (⟨S4x260x260x32, .f32⟩ : BufTy).Contents (Elt F) → (⟨S4x256x256x32, .f32⟩ : BufTy).Contents (Elt F)),
    unary main_v151 main_v153 (broadcastInDim S4x256x256x32 ![0, 1, 2, 3] bcast_S4x256x256x1_S4x256x256x32_0_1_2_3 : (⟨S4x256x256x1, .f32⟩ : BufTy).Contents (Elt F) → (⟨S4x256x256x32, .f32⟩ : BufTy).Contents (Elt F)),
    binary main_v152 main_v153 main_v154 (mulf : (⟨S4x256x256x32, .f32⟩ : BufTy).Contents (Elt F) → (⟨S4x256x256x32, .f32⟩ : BufTy).Contents (Elt F) → (⟨S4x256x256x32, .f32⟩ : BufTy).Contents (Elt F)),
    binary main_v148 main_v154 main_v155 (addf : (⟨S4x256x256x32, .f32⟩ : BufTy).Contents (Elt F) → (⟨S4x256x256x32, .f32⟩ : BufTy).Contents (Elt F) → (⟨S4x256x256x32, .f32⟩ : BufTy).Contents (Elt F)),
    unary main_arg1 main_v156 ((extractStridedSlice S4x256x256x1 ![0, 0, 0, 22] · slices_S4x256x256x25_S4x256x256x1_0_0_0_22) : (⟨S4x256x256x25, .f32⟩ : BufTy).Contents (Elt F) → (⟨S4x256x256x1, .f32⟩ : BufTy).Contents (Elt F)),
    reshape main_v156 main_v157 rfl shapeCasts_S4x256x256x1_S4x256x256,
    unary main_v157 main_v158 (broadcastInDim S4x256x256x1 ![0, 1, 2] bcast_S4x256x256_S4x256x256x1_0_1_2 : (⟨S4x256x256, .f32⟩ : BufTy).Contents (Elt F) → (⟨S4x256x256x1, .f32⟩ : BufTy).Contents (Elt F)),
    unary main_v0 main_v159 ((extractStridedSlice S4x256x256x32 ![0, 4, 2, 0] · slices_S4x260x260x32_S4x256x256x32_0_4_2_0) : (⟨S4x260x260x32, .f32⟩ : BufTy).Contents (Elt F) → (⟨S4x256x256x32, .f32⟩ : BufTy).Contents (Elt F)),
    unary main_v158 main_v160 (broadcastInDim S4x256x256x32 ![0, 1, 2, 3] bcast_S4x256x256x1_S4x256x256x32_0_1_2_3 : (⟨S4x256x256x1, .f32⟩ : BufTy).Contents (Elt F) → (⟨S4x256x256x32, .f32⟩ : BufTy).Contents (Elt F)),
    binary main_v159 main_v160 main_v161 (mulf : (⟨S4x256x256x32, .f32⟩ : BufTy).Contents (Elt F) → (⟨S4x256x256x32, .f32⟩ : BufTy).Contents (Elt F) → (⟨S4x256x256x32, .f32⟩ : BufTy).Contents (Elt F)),
    binary main_v155 main_v161 main_v162 (addf : (⟨S4x256x256x32, .f32⟩ : BufTy).Contents (Elt F) → (⟨S4x256x256x32, .f32⟩ : BufTy).Contents (Elt F) → (⟨S4x256x256x32, .f32⟩ : BufTy).Contents (Elt F)),
    unary main_arg1 main_v163 ((extractStridedSlice S4x256x256x1 ![0, 0, 0, 23] · slices_S4x256x256x25_S4x256x256x1_0_0_0_23) : (⟨S4x256x256x25, .f32⟩ : BufTy).Contents (Elt F) → (⟨S4x256x256x1, .f32⟩ : BufTy).Contents (Elt F)),
    reshape main_v163 main_v164 rfl shapeCasts_S4x256x256x1_S4x256x256,
    unary main_v164 main_v165 (broadcastInDim S4x256x256x1 ![0, 1, 2] bcast_S4x256x256_S4x256x256x1_0_1_2 : (⟨S4x256x256, .f32⟩ : BufTy).Contents (Elt F) → (⟨S4x256x256x1, .f32⟩ : BufTy).Contents (Elt F)),
    unary main_v0 main_v166 ((extractStridedSlice S4x256x256x32 ![0, 4, 3, 0] · slices_S4x260x260x32_S4x256x256x32_0_4_3_0) : (⟨S4x260x260x32, .f32⟩ : BufTy).Contents (Elt F) → (⟨S4x256x256x32, .f32⟩ : BufTy).Contents (Elt F)),
    unary main_v165 main_v167 (broadcastInDim S4x256x256x32 ![0, 1, 2, 3] bcast_S4x256x256x1_S4x256x256x32_0_1_2_3 : (⟨S4x256x256x1, .f32⟩ : BufTy).Contents (Elt F) → (⟨S4x256x256x32, .f32⟩ : BufTy).Contents (Elt F)),
    binary main_v166 main_v167 main_v168 (mulf : (⟨S4x256x256x32, .f32⟩ : BufTy).Contents (Elt F) → (⟨S4x256x256x32, .f32⟩ : BufTy).Contents (Elt F) → (⟨S4x256x256x32, .f32⟩ : BufTy).Contents (Elt F)),
    binary main_v162 main_v168 main_v169 (addf : (⟨S4x256x256x32, .f32⟩ : BufTy).Contents (Elt F) → (⟨S4x256x256x32, .f32⟩ : BufTy).Contents (Elt F) → (⟨S4x256x256x32, .f32⟩ : BufTy).Contents (Elt F)),
    unary main_arg1 main_v170 ((extractStridedSlice S4x256x256x1 ![0, 0, 0, 24] · slices_S4x256x256x25_S4x256x256x1_0_0_0_24) : (⟨S4x256x256x25, .f32⟩ : BufTy).Contents (Elt F) → (⟨S4x256x256x1, .f32⟩ : BufTy).Contents (Elt F)),
    reshape main_v170 main_v171 rfl shapeCasts_S4x256x256x1_S4x256x256,
    unary main_v171 main_v172 (broadcastInDim S4x256x256x1 ![0, 1, 2] bcast_S4x256x256_S4x256x256x1_0_1_2 : (⟨S4x256x256, .f32⟩ : BufTy).Contents (Elt F) → (⟨S4x256x256x1, .f32⟩ : BufTy).Contents (Elt F)),
    unary main_v0 main_v173 ((extractStridedSlice S4x256x256x32 ![0, 4, 4, 0] · slices_S4x260x260x32_S4x256x256x32_0_4_4_0) : (⟨S4x260x260x32, .f32⟩ : BufTy).Contents (Elt F) → (⟨S4x256x256x32, .f32⟩ : BufTy).Contents (Elt F)),
    unary main_v172 main_v174 (broadcastInDim S4x256x256x32 ![0, 1, 2, 3] bcast_S4x256x256x1_S4x256x256x32_0_1_2_3 : (⟨S4x256x256x1, .f32⟩ : BufTy).Contents (Elt F) → (⟨S4x256x256x32, .f32⟩ : BufTy).Contents (Elt F)),
    binary main_v173 main_v174 main_v175 (mulf : (⟨S4x256x256x32, .f32⟩ : BufTy).Contents (Elt F) → (⟨S4x256x256x32, .f32⟩ : BufTy).Contents (Elt F) → (⟨S4x256x256x32, .f32⟩ : BufTy).Contents (Elt F)),
    binary main_v169 main_v175 main_v176 (addf : (⟨S4x256x256x32, .f32⟩ : BufTy).Contents (Elt F) → (⟨S4x256x256x32, .f32⟩ : BufTy).Contents (Elt F) → (⟨S4x256x256x32, .f32⟩ : BufTy).Contents (Elt F)),
    unary main_arg2 main_v177 (broadcastInDim S1x1x1x32 ![3] bcast_S32_S1x1x1x32_3 : (⟨S32, .f32⟩ : BufTy).Contents (Elt F) → (⟨S1x1x1x32, .f32⟩ : BufTy).Contents (Elt F)) ]

set_option maxRecDepth 8192 in
set_option maxHeartbeats 4000000 in
/-- The printed window is the line of its operations. -/
theorem part2_eq (c : Dev nD) : main_part2 (F := F) c = seq ops2 := rfl

set_option maxRecDepth 8192 in
/-- Each operation touches TensorCore references only. -/
theorem ops2_sub : (ops2 : List (HloOp τ sig (Elt F))).Forall fun op => op.bufs ⊆ tcRefs τ sig :=
  ⟨unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub ..⟩

set_option maxRecDepth 8192 in
/-- Each operation determines its results (none allocates a buffer). -/
theorem ops2_fresh : (ops2 : List (HloOp τ sig (Elt F))).Forall fun op => op.fresh = ∅ := by
  unfold ops2; simp only [List.Forall]; repeat' constructor

end Cert.ReferenceIdeal.RefRun

end
-- ==== Proof.RefEval2.lean ====
/-
  What the reference's third window leaves, from ANY contents `W`: tap 16 finished from the two pieces it finds, taps
  17 … 24 added, and the bias laid `[1, 1, 1, 32]`; the arguments untouched.
-/
import proofs.«174641_j80814104641711_2_alg».proof.Proof.RefWindow2
import proofs.«174641_j80814104641711_2_alg».proof.Proof.RefTerms

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefValue

variable (W : Valuation τ sig (Elt Ideal))

/-- The running sum after all 25 taps, from the sum and the two pieces of tap 16 found. -/
theorem eval2_acc : after (ops2 (F := Ideal)) W (Proc.devRef .tc main_v176)
    = acc25 (W (Proc.devRef .tc main_v113)) (W (Proc.devRef .tc main_v116)) (W (Proc.devRef .tc main_v117))
        (W (Proc.devRef .tc main_v0)) (W (Proc.devRef .tc main_arg1)) := by
  unfold ops2; after_results_simp <;> rfl

/-- The bias laid `[1, 1, 1, 32]`. -/
theorem eval2_bias : after (ops2 (F := Ideal)) W (Proc.devRef .tc main_v177) = biasRow (W (Proc.devRef .tc main_arg2)) := by
  unfold ops2; after_results_simp <;> rfl

/-- The arguments are untouched. -/
theorem eval2_arg0 : after (ops2 (F := Ideal)) W (Proc.devRef .tc main_arg0) = W (Proc.devRef .tc main_arg0) := by
  unfold ops2; after_results_simp <;> rfl
theorem eval2_arg1 : after (ops2 (F := Ideal)) W (Proc.devRef .tc main_arg1) = W (Proc.devRef .tc main_arg1) := by
  unfold ops2; after_results_simp <;> rfl
theorem eval2_arg2 : after (ops2 (F := Ideal)) W (Proc.devRef .tc main_arg2) = W (Proc.devRef .tc main_arg2) := by
  unfold ops2; after_results_simp <;> rfl

end Cert.ReferenceIdeal.RefRun

end
-- ==== Proof.RefWindow3.lean ====
import proofs.«174641_j80814104641711_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 182 … 183 of the reference's @main, in order: the printed window `main_part3`. -/
def ops3 : List (HloOp τ sig (Elt F)) :=
  [ unary main_v177 main_v178 (broadcastInDim S4x256x256x32 ![0, 1, 2, 3] bcast_S1x1x1x32_S4x256x256x32_0_1_2_3 : (⟨S1x1x1x32, .f32⟩ : BufTy).Contents (Elt F) → (⟨S4x256x256x32, .f32⟩ : BufTy).Contents (Elt F)),
    binary main_v176 main_v178 main_v179 (addf : (⟨S4x256x256x32, .f32⟩ : BufTy).Contents (Elt F) → (⟨S4x256x256x32, .f32⟩ : BufTy).Contents (Elt F) → (⟨S4x256x256x32, .f32⟩ : BufTy).Contents (Elt F)) ]

set_option maxRecDepth 8192 in
set_option maxHeartbeats 4000000 in
/-- The printed window is the line of its operations. -/
theorem part3_eq (c : Dev nD) : main_part3 (F := F) c = seq ops3 := rfl

set_option maxRecDepth 8192 in
/-- Each operation touches TensorCore references only. -/
theorem ops3_sub : (ops3 : List (HloOp τ sig (Elt F))).Forall fun op => op.bufs ⊆ tcRefs τ sig :=
  ⟨unary_bufs_sub .., binary_bufs_sub ..⟩

set_option maxRecDepth 8192 in
/-- Each operation determines its results (none allocates a buffer). -/
theorem ops3_fresh : (ops3 : List (HloOp τ sig (Elt F))).Forall fun op => op.fresh = ∅ := by
  unfold ops3; simp only [List.Forall]; repeat' constructor

end Cert.ReferenceIdeal.RefRun

end
-- ==== Proof.RefEval3.lean ====
/-
  What the reference's last window leaves, from ANY contents `W`: the spread bias added to the running sum; the arguments
  untouched.
-/
import proofs.«174641_j80814104641711_2_alg».proof.Proof.RefWindow3
import proofs.«174641_j80814104641711_2_alg».proof.Proof.RefTerms

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefValue

variable (W : Valuation τ sig (Elt Ideal))

/-- The result. -/
theorem eval3_res : after (ops3 (F := Ideal)) W (Proc.devRef .tc main_v179)
    = final (W (Proc.devRef .tc main_v176)) (W (Proc.devRef .tc main_v177)) := by
  unfold ops3; after_results_simp <;> rfl

/-- The arguments are untouched. -/
theorem eval3_arg0 : after (ops3 (F := Ideal)) W (Proc.devRef .tc main_arg0) = W (Proc.devRef .tc main_arg0) := by
  unfold ops3; after_results_simp <;> rfl
theorem eval3_arg1 : after (ops3 (F := Ideal)) W (Proc.devRef .tc main_arg1) = W (Proc.devRef .tc main_arg1) := by
  unfold ops3; after_results_simp <;> rfl
theorem eval3_arg2 : after (ops3 (F := Ideal)) W (Proc.devRef .tc main_arg2) = W (Proc.devRef .tc main_arg2) := by
  unfold ops3; after_results_simp <;> rfl

end Cert.ReferenceIdeal.RefRun

end
-- ==== Proof.LibHostWindows.lean ====
/-
  A general fact for running a long straight line of host operations in pieces.

  A host program's `@main` is printed in consecutive windows when it is long; each window is the line of its own
  operations, so `@main` is the line of the windows' lists concatenated. The contents after a line of operations are a
  fold of the operations' results over the starting contents, and the fold over a concatenation is the second list's
  fold from the first's (the library's `StableHlo.after_append`, Lib/Pipeline/Frame.lean), so a result can be read off one
  window at a time, each window from ANY starting contents. What the library's `run_seq` asks of the whole line — a
  property of every operation — follows from the windows' own facts by `forall_windows`: a property of every element
  of four lists is one of every element of their concatenation. Nothing here depends on a particular program.
-/
import Mathlib.Data.List.Basic

namespace Cert.Lib.HostWindows

/-- A property of every element of four lists is one of every element of their concatenation. -/
theorem forall_windows {α : Type} {p : α → Prop} {l₀ l₁ l₂ l₃ : List α} (h₀ : l₀.Forall p) (h₁ : l₁.Forall p) (h₂ : l₂.Forall p)
    (h₃ : l₃.Forall p) : (l₀ ++ (l₁ ++ (l₂ ++ l₃))).Forall p := by
  rw [List.forall_iff_forall_mem] at h₀ h₁ h₂ h₃ ⊢
  intro x hx
  rcases List.mem_append.mp hx with h | hx
  · exact h₀ x h
  rcases List.mem_append.mp hx with h | hx
  · exact h₁ x h
  rcases List.mem_append.mp hx with h | h
  · exact h₂ x h
  · exact h₃ x h

end Cert.Lib.HostWindows
-- ==== Proof.RefRun.lean ====
/-
  The reference program's run, assembled from its four printed windows.

  `@main` runs its four windows one after the other, and each window is the line of its operations; so `@main` is the
  line of all 183 (`main_eq`), and every weakly fair execution terminates with each buffer at the fold of the
  operations' results over the launch contents (the library's `run_seq`). The fold over a concatenation is the fold
  over the second list from the fold over the first (the library's `StableHlo.after_append`), so the result buffer is read off window by
  window: the last window from what the third left, that from what the second left, and so on down to the launch
  contents — `refTerm` of the padded feature map, the weights and the bias, which is the specification's result
  (`refTerm_eq_result`). No operation writes an argument, so the three arguments end as launched.
-/
import proofs.«174641_j80814104641711_2_alg».proof.Proof.RefEval0
import proofs.«174641_j80814104641711_2_alg».proof.Proof.RefEval1
import proofs.«174641_j80814104641711_2_alg».proof.Proof.RefEval2
import proofs.«174641_j80814104641711_2_alg».proof.Proof.RefEval3
import proofs.«174641_j80814104641711_2_alg».proof.Proof.LibHostWindows
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefValue Cert.Lib.HostWindows

variable {F : FTy → Type} [FloatOps F]

/-- The reference's 183 operations: its four windows in a row. -/
def ops : List (HloOp τ sig (Elt F)) := ops0 ++ (ops1 ++ (ops2 ++ ops3))

/-- `@main` is the line of its operations: it runs the four windows in order, and each is the line of its own. -/
theorem main_eq (c : Dev nD) : main (F := F) c = seq ops := by
  unfold ops
  rw [seq_append, seq_append, seq_append, ← part0_eq c, ← part1_eq c, ← part2_eq c, ← part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_windows ops0_sub ops1_sub ops2_sub ops3_sub

theorem ops_fresh : ∀ op ∈ (ops : List (HloOp τ sig (Elt F))), op.fresh = ∅ :=
  List.forall_iff_forall_mem.mp (forall_windows ops0_fresh ops1_fresh ops2_fresh ops3_fresh)

/-- Every weakly fair execution of the reference terminates with each TensorCore buffer at the fold of the operations'
    results over its launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

section Results
variable (V : Valuation τ sig (Elt Ideal))

/-- The result buffer after all four windows: the specification's result of the padded feature map, the weights and
    the bias as the windows found them. -/
theorem result_fold : (after (ops (F := Ideal)) V (Proc.devRef .tc main_v179) : S4x256x256x32.Idx → EReal)
    = PixelConv.result (PixelConv.paddedMap (V (Proc.devRef .tc main_arg0))) (V (Proc.devRef .tc main_arg1))
        (V (Proc.devRef .tc main_arg2)) := by
  unfold ops
  rw [after_append, after_append, after_append, eval3_res, eval2_acc, eval2_bias, eval1_acc, eval1_w16, eval1_p16, eval1_v0,
    eval1_arg1, eval1_arg2, eval0_acc, eval0_pad, eval0_arg1, eval0_arg2]
  exact (refTerm_eq_result _ _ _).trans (by rw [padTerm_eq])

/-- No operation writes an argument. -/
theorem arg0_fold : after (ops (F := Ideal)) V (Proc.devRef .tc main_arg0) = V (Proc.devRef .tc main_arg0) := by
  unfold ops; rw [after_append, after_append, after_append, eval3_arg0, eval2_arg0, eval1_arg0, eval0_arg0]
theorem arg1_fold : after (ops (F := Ideal)) V (Proc.devRef .tc main_arg1) = V (Proc.devRef .tc main_arg1) := by
  unfold ops; rw [after_append, after_append, after_append, eval3_arg1, eval2_arg1, eval1_arg1, eval0_arg1]
theorem arg2_fold : after (ops (F := Ideal)) V (Proc.devRef .tc main_arg2) = V (Proc.devRef .tc main_arg2) := by
  unfold ops; rw [after_append, after_append, after_append, eval3_arg2, eval2_arg2, eval1_arg2, eval0_arg2]

end Results

/-- THE REFERENCE'S RUN at the ideal instance: every weakly fair execution terminates with the result buffer at the
    specification's result of the padded feature map, the weights and the bias, and the three arguments as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v179)
          = PixelConv.result (PixelConv.paddedMap (m ((c.tc : Thread nD τ).loc main_arg0)))
              (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v179).trans (result_fold (launchContents m c)),
      (h c main_arg0).trans (arg0_fold (launchContents m c)),
      (h c main_arg1).trans (arg1_fold (launchContents m c)),
      (h c main_arg2).trans (arg2_fold (launchContents m c))⟩)
    (run_fold m ρ)

end Cert.ReferenceIdeal.RefRun

end
-- ==== Proof.lean ====
/-
  The proof of `Cert.Claim`: a per-pixel predicted convolution kernel against its jnp reference.

  Both programs zero-pad the feature map on the host by two rows and two columns on each side, and both compute, at
  batch `b`, pixel `(h, w)`, channel `c`,

      (((z + P[b, h+0, w+0, c] · K[b, h, w, 0]) + P[b, h+0, w+1, c] · K[b, h, w, 1]) + … + P[b, h+4, w+4, c] · K[b, h, w, 24]) + B[c]

  with `P` the padded map, `K` the per-pixel weights, `B` the bias and `z` the f32 zero word: the 25 taps of the 5 × 5
  window added in the same order and with the same grouping from the same word, then the bias
  (`Cert.PixelConv.result`, Proof/PixelConvSpec.lean). The kernel does it tile by tile over a 4 × 8 grid — one batch
  element, 32 rows — from the batch element's slab of the padded map and the tile's rows of the weights
  (Proof/TileLayout.lean, Proof/TileValue.lean: one point's tile; Proof/ArrayValue.lean: the 32 tiles are the array);
  the reference on whole arrays, one slice, one spread and one product per tap, its 183 host operations run window by
  window (Proof/RefWindow0 … 3.lean: the windows' operations; Proof/RefEval0 … 3.lean: what each window leaves;
  Proof/RefTerms.lean: those values at an index; Proof/RefRun.lean: the run). Since the two sums are the same term for
  term, no law of the extended reals joins them and the finiteness of the inputs is never used: the algebraic claim's
  precondition is not opened.

  The two kernel frames are the generated ones, the reference's is its run with the result dropped, and the
  idealization rewrote nothing, so `preserves` is `True`.
-/
import proofs.«174641_j80814104641711_2_alg».proof.Defs
import proofs.«174641_j80814104641711_2_alg».proof.Proof.Gen.Kernel
import proofs.«174641_j80814104641711_2_alg».proof.Proof.Gen.Kernel.Skeleton
import proofs.«174641_j80814104641711_2_alg».proof.Proof.Gen.Kernel.Launch
import proofs.«174641_j80814104641711_2_alg».proof.Proof.Gen.Kernel.Points
import proofs.«174641_j80814104641711_2_alg».proof.Proof.Gen.Kernel.Frame
import proofs.«174641_j80814104641711_2_alg».proof.Proof.Gen.KernelIdeal
import proofs.«174641_j80814104641711_2_alg».proof.Proof.Gen.KernelIdeal.Skeleton
import proofs.«174641_j80814104641711_2_alg».proof.Proof.Gen.KernelIdeal.Launch
import proofs.«174641_j80814104641711_2_alg».proof.Proof.Gen.KernelIdeal.Points
import proofs.«174641_j80814104641711_2_alg».proof.Proof.Gen.KernelIdeal.Frame
import proofs.«174641_j80814104641711_2_alg».proof.Proof.Gen.ReferenceIdeal
import proofs.«174641_j80814104641711_2_alg».proof.Proof.Gen.Pre_finite_inputs
import proofs.«174641_j80814104641711_2_alg».proof.Proof.Gen.KernelIdeal.Value
import proofs.«174641_j80814104641711_2_alg».proof.Proof.ArrayValue
import proofs.«174641_j80814104641711_2_alg».proof.Proof.RefRun
import Idealize.ShloMosaic.Adequacy
import Idealize.ShloMosaic.Init

noncomputable section

namespace Cert.Proof

open Idealize.ShloMosaic Idealize.ShloMosaic.TcCoe Idealize.SL.Sem

/-- The word-level kernel runs, nothing faults, and its arguments end unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.RefRun.run m ρ)

/-- The idealization rewrote no operation. -/
theorem preserves : Cert.preserves_Kernel_KernelIdeal := trivial

/-- From memories that agree on the three arguments, the idealized kernel's result array and the idealized
    reference's end at the same function of them, `Cert.PixelConv.result` of the padded feature map, the weights and
    the bias: the kernel's by its 32 tiles, the reference's by its run. -/
theorem algebraic : Cert.algebraic_KernelIdeal_ReferenceIdeal := by
  intro m ρ m' ρ' _ hagree
  refine ⟨fun c => Cert.KernelIdeal.ArrayValue.resultArray m c, Cert.KernelIdeal.ArrayValue.run m ρ, ?_⟩
  refine (θ_run Cert.ReferenceIdeal.defs _ _).mono (fun _ h c => ⟨(h c).1.trans ?_, (h c).2⟩)
    (Cert.ReferenceIdeal.RefRun.run m' ρ')
  rw [(hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
